-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x320000 : Shape := ⟨2, ![2, 320000]⟩
abbrev S100000 : Shape := ⟨1, ![100000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S16x2 .f32) (main_arg14 : FVec F S2 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x2 .f32 := Host.absf main_arg13
  let main_cst_20 : FVec F S_ .f32 := constant S_ .f32 0x7F800000#32
  let main_v55 : FVec F S16x2 .f32 := broadcastInDim S16x2 ![] bcast_S_S16x2 main_cst_20
  let main_v56 : IVec S16x2 1 := cmpf .olt main_v54 main_v55
  let main_c_21 : IVec S_ 1 := constantI S_ 1 1#1
  let main_v57 : IVec S_ 1 := (fun x v => Host.reduce IntOp.andi x v reducesTo_S16x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S64x32 .f32) (main_arg10 : FVec F S32 .f32) (main_arg11 : FVec F S32x16 .f32) (main_arg12 : FVec F S16 .f32) (main_arg13 : FVec F S16x2 .f32) (main_arg14 : FVec F S2 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x16 .f32 := Host.absf main_arg11
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg13 main_arg14 main_v48 main_v49 main_v50

def fn_part1 {F : FTy → Type} [FloatOps F] (main_arg6 : FVec F S128 .f32) (main_arg7 : FVec F S128x64 .f32) (main_arg8 : FVec F S64 .f32) (main_arg9 : FVec F S64x32 .f32) (main_arg10 : FVec F S32 .f32) (main_arg11 : FVec F S32x16 .f32) (main_arg12 : FVec F S16 .f32) (main_arg13 : FVec F S16x2 .f32) (main_arg14 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x512 .f32) (main_arg1 : IVec S2x320000 32) (main_arg2 : IVec S100000 32) (main_arg3 : FVec F S512x256 .f32) (main_arg4 : FVec F S256 .f32) (main_arg5 : FVec F S256x128 .f32) (main_arg6 : FVec F S128 .f32) (main_arg7 : FVec F S128x64 .f32) (main_arg8 : FVec F S64 .f32) (main_arg9 : FVec F S64x32 .f32) (main_arg10 : FVec F S32 .f32) (main_arg11 : FVec F S32x16 .f32) (main_arg12 : FVec F S16 .f32) (main_arg13 : FVec F S16x2 .f32) (main_arg14 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_arg13 main_arg14 main_v13 main_v16
-- ==== Kernel.lean ====
abbrev S100000x512 : Shape := ⟨2, ![100000, 512]⟩
abbrev S2x320000 : Shape := ⟨2, ![2, 320000]⟩
abbrev S100000 : Shape := ⟨1, ![100000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x320000 : Shape := ⟨2, ![1, 320000]⟩
abbrev S320000 : Shape := ⟨1, ![320000]⟩
abbrev S420000 : Shape := ⟨1, ![420000]⟩
abbrev S_ : Shape := ⟨0, ![]⟩
abbrev S420000x1 : Shape := ⟨2, ![420000, 1]⟩
abbrev S100000x256 : Shape := ⟨2, ![100000, 256]⟩
abbrev S5000x512 : Shape := ⟨2, ![5000, 512]⟩
abbrev S5000x256 : Shape := ⟨2, ![5000, 256]⟩
abbrev S420000x256 : Shape := ⟨2, ![420000, 256]⟩
abbrev S1x256 : Shape := ⟨2, ![1, 256]⟩
abbrev S100000x128 : Shape := ⟨2, ![100000, 128]⟩
abbrev S5000x128 : Shape := ⟨2, ![5000, 128]⟩
abbrev S420000x128 : Shape := ⟨2, ![420000, 128]⟩
abbrev S1x128 : Shape := ⟨2, ![1, 128]⟩
abbrev S100000x64 : Shape := ⟨2, ![100000, 64]⟩
abbrev S5000x64 : Shape := ⟨2, ![5000, 64]⟩
abbrev S420000x64 : Shape := ⟨2, ![420000, 64]⟩
abbrev S1x64 : Shape := ⟨2, ![1, 64]⟩
abbrev S100000x32 : Shape := ⟨2, ![100000, 32]⟩
abbrev S5000x32 : Shape := ⟨2, ![5000, 32]⟩
abbrev S420000x32 : Shape := ⟨2, ![420000, 32]⟩
abbrev S1x32 : Shape := ⟨2, ![1, 32]⟩
abbrev S100000x1 : Shape := ⟨2, ![100000, 1]⟩
abbrev S64x1 : Shape := ⟨2, ![64, 1]⟩
abbrev S64x16 : Shape := ⟨2, ![64, 16]⟩
abbrev S1x16 : Shape := ⟨2, ![1, 16]⟩
abbrev S64x2 : Shape := ⟨2, ![64, 2]⟩
abbrev S1x2 : Shape := ⟨2, ![1, 2]⟩

abbrev nBuf : Space → Nat
  | .hbm => 182
  | .vmem => 20
  | .smem => 0
  | _ => 0

abbrev hbmTy0_0 (i : Nat) : BufTy := match i % 128 with
  | 0 => ⟨S100000x512, .f32⟩
  | 1 => ⟨S2x320000, .i32⟩
  | 2 => ⟨S100000, .i32⟩
  | 3 => ⟨S512x256, .f32⟩
  | 4 => ⟨S256, .f32⟩
  | 5 => ⟨S256x128, .f32⟩
  | 6 => ⟨S128, .f32⟩
  | 7 => ⟨S128x64, .f32⟩
  | 8 => ⟨S64, .f32⟩
  | 9 => ⟨S64x32, .f32⟩
  | 10 => ⟨S32, .f32⟩
  | 11 => ⟨S32x16, .f32⟩
  | 12 => ⟨S16, .f32⟩
  | 13 => ⟨S16x2, .f32⟩
  | 14 => ⟨S2, .f32⟩
  | 15 => ⟨S100000, .i32⟩
  | 16 => ⟨S1x320000, .i32⟩
  | 17 => ⟨S320000, .i32⟩
  | 18 => ⟨S420000, .i32⟩
  | 19 => ⟨S1x320000, .i32⟩
  | 20 => ⟨S320000, .i32⟩
  | 21 => ⟨S420000, .i32⟩
  | 22 => ⟨S_, .f32⟩
  | 23 => ⟨S420000, .f32⟩
  | 24 => ⟨S_, .f32⟩
  | 25 => ⟨S100000, .f32⟩
  | 26 => ⟨S420000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S420000, .i32⟩
  | 41 => ⟨S420000, .i1⟩
  | 42 => ⟨S_, .i32⟩
  | 43 => ⟨S420000, .i32⟩
  | 44 => ⟨S420000, .i32⟩
  | 45 => ⟨S420000, .i32⟩
  | 46 => ⟨S420000x1, .i32⟩
  | 47 => ⟨S420000, .f32⟩
  | 48 => ⟨S_, .i32⟩
  | 49 => ⟨S420000, .i32⟩
  | 50 => ⟨S420000, .i1⟩
  | 51 => ⟨S_, .i32⟩
  | 52 => ⟨S420000, .i32⟩
  | 53 => ⟨S420000, .i32⟩
  | 54 => ⟨S420000, .i32⟩
  | 55 => ⟨S420000x1, .i32⟩
  | 56 => ⟨S420000, .f32⟩
  | 57 => ⟨S420000, .f32⟩
  | 58 => ⟨S100000x512, .bf16⟩
  | 59 => ⟨S512x256, .bf16⟩
  | 60 => ⟨S100000x256, .f32⟩
  | 61 => ⟨S_, .i32⟩
  | 62 => ⟨S420000, .i32⟩
  | 63 => ⟨S420000, .i1⟩
  | 64 => ⟨S_, .i32⟩
  | 65 => ⟨S420000, .i32⟩
  | 66 => ⟨S420000, .i32⟩
  | 67 => ⟨S420000, .i32⟩
  | 68 => ⟨S420000x1, .i32⟩
  | 69 => ⟨S420000x256, .f32⟩
  | 70 => ⟨S420000x1, .f32⟩
  | 71 => ⟨S420000x256, .f32⟩
  | 72 => ⟨S420000x256, .f32⟩
  | 73 => ⟨S_, .f32⟩
  | 74 => ⟨S100000x256, .f32⟩
  | 75 => ⟨S420000x1, .i32⟩
  | 76 => ⟨S100000x256, .f32⟩
  | 77 => ⟨S1x256, .f32⟩
  | 78 => ⟨S100000x256, .f32⟩
  | 79 => ⟨S100000x256, .f32⟩
  | 80 => ⟨S_, .f32⟩
  | 81 => ⟨S100000x256, .f32⟩
  | 82 => ⟨S100000x256, .f32⟩
  | 83 => ⟨S100000x256, .bf16⟩
  | 84 => ⟨S256x128, .bf16⟩
  | 85 => ⟨S100000x128, .f32⟩
  | 86 => ⟨S_, .i32⟩
  | 87 => ⟨S420000, .i32⟩
  | 88 => ⟨S420000, .i1⟩
  | 89 => ⟨S_, .i32⟩
  | 90 => ⟨S420000, .i32⟩
  | 91 => ⟨S420000, .i32⟩
  | 92 => ⟨S420000, .i32⟩
  | 93 => ⟨S420000x1, .i32⟩
  | 94 => ⟨S420000x128, .f32⟩
  | 95 => ⟨S420000x1, .f32⟩
  | 96 => ⟨S420000x128, .f32⟩
  | 97 => ⟨S420000x128, .f32⟩
  | 98 => ⟨S_, .f32⟩
  | 99 => ⟨S100000x128, .f32⟩
  | 100 => ⟨S420000x1, .i32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .bf16⟩
  | 109 => ⟨S128x64, .bf16⟩
  | 110 => ⟨S100000x64, .f32⟩
  | 111 => ⟨S_, .i32⟩
  | 112 => ⟨S420000, .i32⟩
  | 113 => ⟨S420000, .i1⟩
  | 114 => ⟨S_, .i32⟩
  | 115 => ⟨S420000, .i32⟩
  | 116 => ⟨S420000, .i32⟩
  | 117 => ⟨S420000, .i32⟩
  | 118 => ⟨S420000x1, .i32⟩
  | 119 => ⟨S420000x64, .f32⟩
  | 120 => ⟨S420000x1, .f32⟩
  | 121 => ⟨S420000x64, .f32⟩
  | 122 => ⟨S420000x64, .f32⟩
  | 123 => ⟨S_, .f32⟩
  | 124 => ⟨S100000x64, .f32⟩
  | 125 => ⟨S420000x1, .i32⟩
  | 126 => ⟨S100000x64, .f32⟩
  | 127 => ⟨S1x64, .f32⟩
  | _ => ⟨S100000x512, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S100000x64, .bf16⟩
  | 6 => ⟨S64x32, .bf16⟩
  | 7 => ⟨S100000x32, .f32⟩
  | 8 => ⟨S_, .i32⟩
  | 9 => ⟨S420000, .i32⟩
  | 10 => ⟨S420000, .i1⟩
  | 11 => ⟨S_, .i32⟩
  | 12 => ⟨S420000, .i32⟩
  | 13 => ⟨S420000, .i32⟩
  | 14 => ⟨S420000, .i32⟩
  | 15 => ⟨S420000x1, .i32⟩
  | 16 => ⟨S420000x32, .f32⟩
  | 17 => ⟨S420000x1, .f32⟩
  | 18 => ⟨S420000x32, .f32⟩
  | 19 => ⟨S420000x32, .f32⟩
  | 20 => ⟨S_, .f32⟩
  | 21 => ⟨S100000x32, .f32⟩
  | 22 => ⟨S420000x1, .i32⟩
  | 23 => ⟨S100000x32, .f32⟩
  | 24 => ⟨S1x32, .f32⟩
  | 25 => ⟨S100000x32, .f32⟩
  | 26 => ⟨S100000x32, .f32⟩
  | 27 => ⟨S_, .f32⟩
  | 28 => ⟨S64x32, .f32⟩
  | 29 => ⟨S100000x1, .i32⟩
  | 30 => ⟨S64x32, .f32⟩
  | 31 => ⟨S_, .f32⟩
  | 32 => ⟨S100000, .f32⟩
  | 33 => ⟨S_, .f32⟩
  | 34 => ⟨S64, .f32⟩
  | 35 => ⟨S100000x1, .i32⟩
  | 36 => ⟨S64, .f32⟩
  | 37 => ⟨S_, .f32⟩
  | 38 => ⟨S64, .f32⟩
  | 39 => ⟨S64, .f32⟩
  | 40 => ⟨S64x1, .f32⟩
  | 41 => ⟨S64x32, .f32⟩
  | 42 => ⟨S64x32, .f32⟩
  | 43 => ⟨S64x16, .f32⟩
  | 44 => ⟨S1x16, .f32⟩
  | 45 => ⟨S64x16, .f32⟩
  | 46 => ⟨S64x16, .f32⟩
  | 47 => ⟨S_, .f32⟩
  | 48 => ⟨S64x16, .f32⟩
  | 49 => ⟨S64x16, .f32⟩
  | 50 => ⟨S64x2, .f32⟩
  | 51 => ⟨S1x2, .f32⟩
  | 52 => ⟨S64x2, .f32⟩
  | 53 => ⟨S64x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S5000x512, .bf16⟩
  | .local _ .vmem, ⟨1, _⟩ => ⟨S5000x512, .bf16⟩
  | .local _ .vmem, ⟨2, _⟩ => ⟨S512x256, .bf16⟩
  | .local _ .vmem, ⟨3, _⟩ => ⟨S5000x256, .f32⟩
  | .local _ .vmem, ⟨4, _⟩ => ⟨S5000x256, .f32⟩
  | .local _ .vmem, ⟨5, _⟩ => ⟨S5000x256, .bf16⟩
  | .local _ .vmem, ⟨6, _⟩ => ⟨S5000x256, .bf16⟩
  | .local _ .vmem, ⟨7, _⟩ => ⟨S256x128, .bf16⟩
  | .local _ .vmem, ⟨8, _⟩ => ⟨S5000x128, .f32⟩
  | .local _ .vmem, ⟨9, _⟩ => ⟨S5000x128, .f32⟩
  | .local _ .vmem, ⟨10, _⟩ => ⟨S5000x128, .bf16⟩
  | .local _ .vmem, ⟨11, _⟩ => ⟨S5000x128, .bf16⟩
  | .local _ .vmem, ⟨12, _⟩ => ⟨S128x64, .bf16⟩
  | .local _ .vmem, ⟨13, _⟩ => ⟨S5000x64, .f32⟩
  | .local _ .vmem, ⟨14, _⟩ => ⟨S5000x64, .f32⟩
  | .local _ .vmem, ⟨15, _⟩ => ⟨S5000x64, .bf16⟩
  | .local _ .vmem, ⟨16, _⟩ => ⟨S5000x64, .bf16⟩
  | .local _ .vmem, ⟨17, _⟩ => ⟨S64x32, .bf16⟩
  | .local _ .vmem, ⟨18, _⟩ => ⟨S5000x32, .f32⟩
  | .local _ .vmem, ⟨19, _⟩ => ⟨S5000x32, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_call1_cst : Ref sig .tc := ⟨.hbm, 80, rfl⟩
abbrev main_call1_v0 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_10 : Ref sig .tc := ⟨.hbm, 86, rfl⟩
abbrev main_v55 : Ref sig .tc := ⟨.hbm, 87, rfl⟩
abbrev main_v56 : Ref sig .tc := ⟨.hbm, 88, rfl⟩
abbrev main_c_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call2_cst : Ref sig .tc := ⟨.hbm, 105, rfl⟩
abbrev main_call2_v0 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_13 : Ref sig .tc := ⟨.hbm, 111, rfl⟩
abbrev main_v75 : Ref sig .tc := ⟨.hbm, 112, rfl⟩
abbrev main_v76 : Ref sig .tc := ⟨.hbm, 113, rfl⟩
abbrev main_c_14 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_15 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_c_16 : Ref sig .tc := ⟨.hbm, 136, rfl⟩
abbrev main_v95 : Ref sig .tc := ⟨.hbm, 137, rfl⟩
abbrev main_v96 : Ref sig .tc := ⟨.hbm, 138, rfl⟩
abbrev main_c_17 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_18 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_19 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_20 : Ref sig .tc := ⟨.hbm, 159, rfl⟩
abbrev main_v114 : Ref sig .tc := ⟨.hbm, 160, rfl⟩
abbrev main_cst_21 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_22 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_call4_cst : Ref sig .tc := ⟨.hbm, 175, rfl⟩
abbrev main_call4_v0 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x320000_S1x320000_0_0 : S2x320000.Slices ![0, 0] S1x320000
  shapeCasts_S1x320000_S320000 : S1x320000.ShapeCasts S320000
  concatenates_S320000_S100000_S420000_d0 : Shape.Concatenates [S320000, S100000] S420000 0
  slices_S2x320000_S1x320000_1_0 : S2x320000.Slices ![1, 0] S1x320000
  bcast_S_S420000 : S_.BroadcastsInDim S420000 (![] : Fin 0 → Fin S420000.rank)
  bcast_S_S100000 : S_.BroadcastsInDim S100000 (![] : Fin 0 → Fin S100000.rank)
  bcast_S420000_S420000x1_0 : S420000.BroadcastsInDim S420000x1 (![0] : Fin 1 → Fin S420000x1.rank)
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S5000x256_S5000x256_0_0 : ∀ a, (![0, 0] : Fin 2 → Nat) a + S5000x256.size a ≤ S5000x256.size a
  h_S5000x256 : 0 < S5000x256.numel
  bcast_S420000x1_S420000x256_0_1 : S420000x1.BroadcastsInDim S420000x256 (![0, 1] : Fin 2 → Fin S420000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S420000x1_S420000x128_0_1 : S420000x1.BroadcastsInDim S420000x128 (![0, 1] : Fin 2 → Fin S420000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S420000x1_S420000x64_0_1 : S420000x1.BroadcastsInDim S420000x64 (![0, 1] : Fin 2 → Fin S420000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S5000x32_S5000x32_0_0 : ∀ a, (![0, 0] : Fin 2 → Nat) a + S5000x32.size a ≤ S5000x32.size a
  h_S5000x32 : 0 < S5000x32.numel
  bcast_S420000x1_S420000x32_0_1 : S420000x1.BroadcastsInDim S420000x32 (![0, 1] : Fin 2 → Fin S420000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S420000x1_S420000_n_0_0_1_wf : ScatterDims.WF S100000 S420000x1 S420000 [] [0] [0] 1
  gather_S100000_S420000x1_S420000_n_0_n_n_0_1_1_wf : GatherDims.WF S100000 S420000x1 S420000 [] [0] [] [0] [] 1 ![1]
  dot_S5000x512_S512x256_S5000x256_1_0_0_1_n_n_wf : DotDims.WF S5000x512 S512x256 S5000x256 [1] [0] [0] [1] [] []
  gather_S100000x256_S420000x1_S420000x256_1_0_n_n_0_1_1256_wf : GatherDims.WF S100000x256 S420000x1 S420000x256 [1] [0] [] [0] [] 1 ![1, 256]
  scatter_S100000x256_S420000x1_S420000x256_1_0_0_1_wf : ScatterDims.WF S100000x256 S420000x1 S420000x256 [1] [0] [0] 1
  dot_S5000x256_S256x128_S5000x128_1_0_0_1_n_n_wf : DotDims.WF S5000x256 S256x128 S5000x128 [1] [0] [0] [1] [] []
  gather_S100000x128_S420000x1_S420000x128_1_0_n_n_0_1_1128_wf : GatherDims.WF S100000x128 S420000x1 S420000x128 [1] [0] [] [0] [] 1 ![1, 128]
  scatter_S100000x128_S420000x1_S420000x128_1_0_0_1_wf : ScatterDims.WF S100000x128 S420000x1 S420000x128 [1] [0] [0] 1
  dot_S5000x128_S128x64_S5000x64_1_0_0_1_n_n_wf : DotDims.WF S5000x128 S128x64 S5000x64 [1] [0] [0] [1] [] []
  gather_S100000x64_S420000x1_S420000x64_1_0_n_n_0_1_164_wf : GatherDims.WF S100000x64 S420000x1 S420000x64 [1] [0] [] [0] [] 1 ![1, 64]
  scatter_S100000x64_S420000x1_S420000x64_1_0_0_1_wf : ScatterDims.WF S100000x64 S420000x1 S420000x64 [1] [0] [0] 1
  dot_S5000x64_S64x32_S5000x32_1_0_0_1_n_n_wf : DotDims.WF S5000x64 S64x32 S5000x32 [1] [0] [0] [1] [] []
  gather_S100000x32_S420000x1_S420000x32_1_0_n_n_0_1_132_wf : GatherDims.WF S100000x32 S420000x1 S420000x32 [1] [0] [] [0] [] 1 ![1, 32]
  scatter_S100000x32_S420000x1_S420000x32_1_0_0_1_wf : ScatterDims.WF S100000x32 S420000x1 S420000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x16_S64x16_1_0_0_1_n_n_wf : DotDims.WF S64x32 S32x16 S64x16 [1] [0] [0] [1] [] []
  dot_S64x16_S16x2_S64x2_1_0_0_1_n_n_wf : DotDims.WF S64x16 S16x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .bf16 = 32 ∨ (Rect.block (s := S100000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .bf16 = 32 ∨ (Rect.block (s := S100000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .bf16 = 32 ∨ (Rect.block (s := S100000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .bf16 = 32 ∨ (Rect.block (s := S100000x64) S5000x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .bf16 = 32 ∨ (Rect.block (s := S64x32) S64x32.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)

variable [Facts₀]

def scatter_S100000_S420000x1_S420000_n_0_0_1 : ScatterDims S100000 S420000x1 S420000 where
  updateWindowDims := []
  insertedWindowDims := [0]
  scatterDimsToOperandDims := [0]
  indexVectorDim := 1
  wf := scatter_S100000_S420000x1_S420000_n_0_0_1_wf
def gather_S100000_S420000x1_S420000_n_0_n_n_0_1_1 : GatherDims S100000 S420000x1 S420000 where
  offsetDims := []
  collapsedSliceDims := [0]
  operandBatchingDims := []
  startIndicesBatchingDims := []
  startIndexMap := [0]
  indexVectorDim := 1
  sliceSizes := ![1]
  wf := gather_S100000_S420000x1_S420000_n_0_n_n_0_1_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S100000x256_S420000x1_S420000x256_1_0_n_n_0_1_1256 : GatherDims S100000x256 S420000x1 S420000x256 where
  offsetDims := [1]
  collapsedSliceDims := [0]
  operandBatchingDims := []
  startIndicesBatchingDims := []
  startIndexMap := [0]
  indexVectorDim := 1
  sliceSizes := ![1, 256]
  wf := gather_S100000x256_S420000x1_S420000x256_1_0_n_n_0_1_1256_wf
def scatter_S100000x256_S420000x1_S420000x256_1_0_0_1 : ScatterDims S100000x256 S420000x1 S420000x256 where
  updateWindowDims := [1]
  insertedWindowDims := [0]
  scatterDimsToOperandDims := [0]
  indexVectorDim := 1
  wf := scatter_S100000x256_S420000x1_S420000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S420000x1_S420000x128_1_0_n_n_0_1_1128 : GatherDims S100000x128 S420000x1 S420000x128 where
  offsetDims := [1]
  collapsedSliceDims := [0]
  operandBatchingDims := []
  startIndicesBatchingDims := []
  startIndexMap := [0]
  indexVectorDim := 1
  sliceSizes := ![1, 128]
  wf := gather_S100000x128_S420000x1_S420000x128_1_0_n_n_0_1_1128_wf
def scatter_S100000x128_S420000x1_S420000x128_1_0_0_1 : ScatterDims S100000x128 S420000x1 S420000x128 where
  updateWindowDims := [1]
  insertedWindowDims := [0]
  scatterDimsToOperandDims := [0]
  indexVectorDim := 1
  wf := scatter_S100000x128_S420000x1_S420000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S420000x1_S420000x64_1_0_n_n_0_1_164 : GatherDims S100000x64 S420000x1 S420000x64 where
  offsetDims := [1]
  collapsedSliceDims := [0]
  operandBatchingDims := []
  startIndicesBatchingDims := []
  startIndexMap := [0]
  indexVectorDim := 1
  sliceSizes := ![1, 64]
  wf := gather_S100000x64_S420000x1_S420000x64_1_0_n_n_0_1_164_wf
def scatter_S100000x64_S420000x1_S420000x64_1_0_0_1 : ScatterDims S100000x64 S420000x1 S420000x64 where
  updateWindowDims := [1]
  insertedWindowDims := [0]
  scatterDimsToOperandDims := [0]
  indexVectorDim := 1
  wf := scatter_S100000x64_S420000x1_S420000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S420000x1_S420000x32_1_0_n_n_0_1_132 : GatherDims S100000x32 S420000x1 S420000x32 where
  offsetDims := [1]
  collapsedSliceDims := [0]
  operandBatchingDims := []
  startIndicesBatchingDims := []
  startIndexMap := [0]
  indexVectorDim := 1
  sliceSizes := ![1, 32]
  wf := gather_S100000x32_S420000x1_S420000x32_1_0_n_n_0_1_132_wf
def scatter_S100000x32_S420000x1_S420000x32_1_0_0_1 : ScatterDims S100000x32 S420000x1 S420000x32 where
  updateWindowDims := [1]
  insertedWindowDims := [0]
  scatterDimsToOperandDims := [0]
  indexVectorDim := 1
  wf := scatter_S100000x32_S420000x1_S420000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x2_S64x2_1_0_0_1_n_n : DotDims S64x16 S16x2 S64x2 where
  lhsContracting := [1]
  rhsContracting := [0]
  lhsNonContracting := [0]
  rhsNonContracting := [1]
  lhsBatch := []
  rhsBatch := []
  wf := dot_S64x16_S16x2_S64x2_1_0_0_1_n_n_wf

abbrev win0_0 : Pipeline.Window sig grid0 :=
  Pipeline.Window.ofSpec (Memref.whole main_v32) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v72) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v92) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x320000 : Shape := ⟨2, ![2, 320000]⟩
abbrev S100000 : Shape := ⟨1, ![100000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x320000 : Shape := ⟨2, ![1, 320000]⟩
abbrev S320000 : Shape := ⟨1, ![320000]⟩
abbrev S420000 : Shape := ⟨1, ![420000]⟩
abbrev S_ : Shape := ⟨0, ![]⟩
abbrev S420000x1 : Shape := ⟨2, ![420000, 1]⟩
abbrev S100000x256 : Shape := ⟨2, ![100000, 256]⟩
abbrev S420000x256 : Shape := ⟨2, ![420000, 256]⟩
abbrev S1x256 : Shape := ⟨2, ![1, 256]⟩
abbrev S100000x128 : Shape := ⟨2, ![100000, 128]⟩
abbrev S420000x128 : Shape := ⟨2, ![420000, 128]⟩
abbrev S1x128 : Shape := ⟨2, ![1, 128]⟩
abbrev S100000x64 : Shape := ⟨2, ![100000, 64]⟩
abbrev S420000x64 : Shape := ⟨2, ![420000, 64]⟩
abbrev S1x64 : Shape := ⟨2, ![1, 64]⟩
abbrev S100000x32 : Shape := ⟨2, ![100000, 32]⟩
abbrev S420000x32 : Shape := ⟨2, ![420000, 32]⟩
abbrev S1x32 : Shape := ⟨2, ![1, 32]⟩
abbrev S100000x1 : Shape := ⟨2, ![100000, 1]⟩
abbrev S64x1 : Shape := ⟨2, ![64, 1]⟩
abbrev S64x16 : Shape := ⟨2, ![64, 16]⟩
abbrev S1x16 : Shape := ⟨2, ![1, 16]⟩
abbrev S64x2 : Shape := ⟨2, ![64, 2]⟩
abbrev S1x2 : Shape := ⟨2, ![1, 2]⟩

abbrev nBuf : Space → Nat
  | .hbm => 174
  | .vmem => 0
  | .smem => 0
  | _ => 0

abbrev hbmTy0_0 (i : Nat) : BufTy := match i % 128 with
  | 0 => ⟨S100000x512, .f32⟩
  | 1 => ⟨S2x320000, .i32⟩
  | 2 => ⟨S100000, .i32⟩
  | 3 => ⟨S512x256, .f32⟩
  | 4 => ⟨S256, .f32⟩
  | 5 => ⟨S256x128, .f32⟩
  | 6 => ⟨S128, .f32⟩
  | 7 => ⟨S128x64, .f32⟩
  | 8 => ⟨S64, .f32⟩
  | 9 => ⟨S64x32, .f32⟩
  | 10 => ⟨S32, .f32⟩
  | 11 => ⟨S32x16, .f32⟩
  | 12 => ⟨S16, .f32⟩
  | 13 => ⟨S16x2, .f32⟩
  | 14 => ⟨S2, .f32⟩
  | 15 => ⟨S100000, .i32⟩
  | 16 => ⟨S1x320000, .i32⟩
  | 17 => ⟨S320000, .i32⟩
  | 18 => ⟨S420000, .i32⟩
  | 19 => ⟨S1x320000, .i32⟩
  | 20 => ⟨S320000, .i32⟩
  | 21 => ⟨S420000, .i32⟩
  | 22 => ⟨S_, .f32⟩
  | 23 => ⟨S420000, .f32⟩
  | 24 => ⟨S_, .f32⟩
  | 25 => ⟨S100000, .f32⟩
  | 26 => ⟨S420000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S420000, .i32⟩
  | 41 => ⟨S420000, .i1⟩
  | 42 => ⟨S_, .i32⟩
  | 43 => ⟨S420000, .i32⟩
  | 44 => ⟨S420000, .i32⟩
  | 45 => ⟨S420000, .i32⟩
  | 46 => ⟨S420000x1, .i32⟩
  | 47 => ⟨S420000, .f32⟩
  | 48 => ⟨S_, .i32⟩
  | 49 => ⟨S420000, .i32⟩
  | 50 => ⟨S420000, .i1⟩
  | 51 => ⟨S_, .i32⟩
  | 52 => ⟨S420000, .i32⟩
  | 53 => ⟨S420000, .i32⟩
  | 54 => ⟨S420000, .i32⟩
  | 55 => ⟨S420000x1, .i32⟩
  | 56 => ⟨S420000, .f32⟩
  | 57 => ⟨S420000, .f32⟩
  | 58 => ⟨S100000x256, .f32⟩
  | 59 => ⟨S_, .i32⟩
  | 60 => ⟨S420000, .i32⟩
  | 61 => ⟨S420000, .i1⟩
  | 62 => ⟨S_, .i32⟩
  | 63 => ⟨S420000, .i32⟩
  | 64 => ⟨S420000, .i32⟩
  | 65 => ⟨S420000, .i32⟩
  | 66 => ⟨S420000x1, .i32⟩
  | 67 => ⟨S420000x256, .f32⟩
  | 68 => ⟨S420000x1, .f32⟩
  | 69 => ⟨S420000x256, .f32⟩
  | 70 => ⟨S420000x256, .f32⟩
  | 71 => ⟨S_, .f32⟩
  | 72 => ⟨S100000x256, .f32⟩
  | 73 => ⟨S420000x1, .i32⟩
  | 74 => ⟨S100000x256, .f32⟩
  | 75 => ⟨S1x256, .f32⟩
  | 76 => ⟨S100000x256, .f32⟩
  | 77 => ⟨S100000x256, .f32⟩
  | 78 => ⟨S_, .f32⟩
  | 79 => ⟨S100000x256, .f32⟩
  | 80 => ⟨S100000x256, .f32⟩
  | 81 => ⟨S100000x128, .f32⟩
  | 82 => ⟨S_, .i32⟩
  | 83 => ⟨S420000, .i32⟩
  | 84 => ⟨S420000, .i1⟩
  | 85 => ⟨S_, .i32⟩
  | 86 => ⟨S420000, .i32⟩
  | 87 => ⟨S420000, .i32⟩
  | 88 => ⟨S420000, .i32⟩
  | 89 => ⟨S420000x1, .i32⟩
  | 90 => ⟨S420000x128, .f32⟩
  | 91 => ⟨S420000x1, .f32⟩
  | 92 => ⟨S420000x128, .f32⟩
  | 93 => ⟨S420000x128, .f32⟩
  | 94 => ⟨S_, .f32⟩
  | 95 => ⟨S100000x128, .f32⟩
  | 96 => ⟨S420000x1, .i32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x64, .f32⟩
  | 105 => ⟨S_, .i32⟩
  | 106 => ⟨S420000, .i32⟩
  | 107 => ⟨S420000, .i1⟩
  | 108 => ⟨S_, .i32⟩
  | 109 => ⟨S420000, .i32⟩
  | 110 => ⟨S420000, .i32⟩
  | 111 => ⟨S420000, .i32⟩
  | 112 => ⟨S420000x1, .i32⟩
  | 113 => ⟨S420000x64, .f32⟩
  | 114 => ⟨S420000x1, .f32⟩
  | 115 => ⟨S420000x64, .f32⟩
  | 116 => ⟨S420000x64, .f32⟩
  | 117 => ⟨S_, .f32⟩
  | 118 => ⟨S100000x64, .f32⟩
  | 119 => ⟨S420000x1, .i32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S100000x32, .f32⟩
  | _ => ⟨S100000x512, .f32⟩

abbrev hbmTy0_1 (i : Nat) : BufTy := match i % 128 with
  | 0 => ⟨S_, .i32⟩
  | 1 => ⟨S420000, .i32⟩
  | 2 => ⟨S420000, .i1⟩
  | 3 => ⟨S_, .i32⟩
  | 4 => ⟨S420000, .i32⟩
  | 5 => ⟨S420000, .i32⟩
  | 6 => ⟨S420000, .i32⟩
  | 7 => ⟨S420000x1, .i32⟩
  | 8 => ⟨S420000x32, .f32⟩
  | 9 => ⟨S420000x1, .f32⟩
  | 10 => ⟨S420000x32, .f32⟩
  | 11 => ⟨S420000x32, .f32⟩
  | 12 => ⟨S_, .f32⟩
  | 13 => ⟨S100000x32, .f32⟩
  | 14 => ⟨S420000x1, .i32⟩
  | 15 => ⟨S100000x32, .f32⟩
  | 16 => ⟨S1x32, .f32⟩
  | 17 => ⟨S100000x32, .f32⟩
  | 18 => ⟨S100000x32, .f32⟩
  | 19 => ⟨S_, .f32⟩
  | 20 => ⟨S64x32, .f32⟩
  | 21 => ⟨S100000x1, .i32⟩
  | 22 => ⟨S64x32, .f32⟩
  | 23 => ⟨S_, .f32⟩
  | 24 => ⟨S100000, .f32⟩
  | 25 => ⟨S_, .f32⟩
  | 26 => ⟨S64, .f32⟩
  | 27 => ⟨S100000x1, .i32⟩
  | 28 => ⟨S64, .f32⟩
  | 29 => ⟨S_, .f32⟩
  | 30 => ⟨S64, .f32⟩
  | 31 => ⟨S64, .f32⟩
  | 32 => ⟨S64x1, .f32⟩
  | 33 => ⟨S64x32, .f32⟩
  | 34 => ⟨S64x32, .f32⟩
  | 35 => ⟨S64x16, .f32⟩
  | 36 => ⟨S1x16, .f32⟩
  | 37 => ⟨S64x16, .f32⟩
  | 38 => ⟨S64x16, .f32⟩
  | 39 => ⟨S_, .f32⟩
  | 40 => ⟨S64x16, .f32⟩
  | 41 => ⟨S64x16, .f32⟩
  | 42 => ⟨S64x2, .f32⟩
  | 43 => ⟨S1x2, .f32⟩
  | 44 => ⟨S64x2, .f32⟩
  | 45 => ⟨S64x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_cst : Ref sig .tc := ⟨.hbm, 78, rfl⟩
abbrev main_call1_v0 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_c_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call2_cst : Ref sig .tc := ⟨.hbm, 101, rfl⟩
abbrev main_call2_v0 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_c_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_call3_cst : Ref sig .tc := ⟨.hbm, 124, rfl⟩
abbrev main_call3_v0 : Ref sig .tc := ⟨.hbm, 125, rfl⟩
abbrev main_v85 : Ref sig .tc := ⟨.hbm, 126, rfl⟩
abbrev main_v86 : Ref sig .tc := ⟨.hbm, 127, rfl⟩
abbrev main_c_16 : Ref sig .tc := ⟨.hbm, 128, rfl⟩
abbrev main_v87 : Ref sig .tc := ⟨.hbm, 129, rfl⟩
abbrev main_v88 : Ref sig .tc := ⟨.hbm, 130, rfl⟩
abbrev main_c_17 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_18 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_19 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_20 : Ref sig .tc := ⟨.hbm, 151, rfl⟩
abbrev main_v106 : Ref sig .tc := ⟨.hbm, 152, rfl⟩
abbrev main_cst_21 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_22 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_call4_cst : Ref sig .tc := ⟨.hbm, 167, rfl⟩
abbrev main_call4_v0 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S100000_S420000_d0 : Shape.Concatenates [S320000, S100000] S420000 0
  slices_S2x320000_S1x320000_1_0 : S2x320000.Slices ![1, 0] S1x320000
  bcast_S_S420000 : S_.BroadcastsInDim S420000 (![] : Fin 0 → Fin S420000.rank)
  bcast_S_S100000 : S_.BroadcastsInDim S100000 (![] : Fin 0 → Fin S100000.rank)
  bcast_S420000_S420000x1_0 : S420000.BroadcastsInDim S420000x1 (![0] : Fin 1 → Fin S420000x1.rank)
  bcast_S420000x1_S420000x256_0_1 : S420000x1.BroadcastsInDim S420000x256 (![0, 1] : Fin 2 → Fin S420000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S420000x1_S420000x128_0_1 : S420000x1.BroadcastsInDim S420000x128 (![0, 1] : Fin 2 → Fin S420000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S420000x1_S420000x64_0_1 : S420000x1.BroadcastsInDim S420000x64 (![0, 1] : Fin 2 → Fin S420000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S420000x1_S420000x32_0_1 : S420000x1.BroadcastsInDim S420000x32 (![0, 1] : Fin 2 → Fin S420000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S420000x1_S420000_n_0_0_1_wf : ScatterDims.WF S100000 S420000x1 S420000 [] [0] [0] 1
  gather_S100000_S420000x1_S420000_n_0_n_n_0_1_1_wf : GatherDims.WF S100000 S420000x1 S420000 [] [0] [] [0] [] 1 ![1]
  dot_S100000x512_S512x256_S100000x256_1_0_0_1_n_n_wf : DotDims.WF S100000x512 S512x256 S100000x256 [1] [0] [0] [1] [] []
  gather_S100000x256_S420000x1_S420000x256_1_0_n_n_0_1_1256_wf : GatherDims.WF S100000x256 S420000x1 S420000x256 [1] [0] [] [0] [] 1 ![1, 256]
  scatter_S100000x256_S420000x1_S420000x256_1_0_0_1_wf : ScatterDims.WF S100000x256 S420000x1 S420000x256 [1] [0] [0] 1
  dot_S100000x256_S256x128_S100000x128_1_0_0_1_n_n_wf : DotDims.WF S100000x256 S256x128 S100000x128 [1] [0] [0] [1] [] []
  gather_S100000x128_S420000x1_S420000x128_1_0_n_n_0_1_1128_wf : GatherDims.WF S100000x128 S420000x1 S420000x128 [1] [0] [] [0] [] 1 ![1, 128]
  scatter_S100000x128_S420000x1_S420000x128_1_0_0_1_wf : ScatterDims.WF S100000x128 S420000x1 S420000x128 [1] [0] [0] 1
  dot_S100000x128_S128x64_S100000x64_1_0_0_1_n_n_wf : DotDims.WF S100000x128 S128x64 S100000x64 [1] [0] [0] [1] [] []
  gather_S100000x64_S420000x1_S420000x64_1_0_n_n_0_1_164_wf : GatherDims.WF S100000x64 S420000x1 S420000x64 [1] [0] [] [0] [] 1 ![1, 64]
  scatter_S100000x64_S420000x1_S420000x64_1_0_0_1_wf : ScatterDims.WF S100000x64 S420000x1 S420000x64 [1] [0] [0] 1
  dot_S100000x64_S64x32_S100000x32_1_0_0_1_n_n_wf : DotDims.WF S100000x64 S64x32 S100000x32 [1] [0] [0] [1] [] []
  gather_S100000x32_S420000x1_S420000x32_1_0_n_n_0_1_132_wf : GatherDims.WF S100000x32 S420000x1 S420000x32 [1] [0] [] [0] [] 1 ![1, 32]
  scatter_S100000x32_S420000x1_S420000x32_1_0_0_1_wf : ScatterDims.WF S100000x32 S420000x1 S420000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x16_S64x16_1_0_0_1_n_n_wf : DotDims.WF S64x32 S32x16 S64x16 [1] [0] [0] [1] [] []
  dot_S64x16_S16x2_S64x2_1_0_0_1_n_n_wf : DotDims.WF S64x16 S16x2 S64x2 [1] [0] [0] [1] [] []

variable [Facts₀]

def scatter_S100000_S420000x1_S420000_n_0_0_1 : ScatterDims S100000 S420000x1 S420000 where
  updateWindowDims := []
  insertedWindowDims := [0]
  scatterDimsToOperandDims := [0]
  indexVectorDim := 1
  wf := scatter_S100000_S420000x1_S420000_n_0_0_1_wf
def gather_S100000_S420000x1_S420000_n_0_n_n_0_1_1 : GatherDims S100000 S420000x1 S420000 where
  offsetDims := []
  collapsedSliceDims := [0]
  operandBatchingDims := []
  startIndicesBatchingDims := []
  startIndexMap := [0]
  indexVectorDim := 1
  sliceSizes := ![1]
  wf := gather_S100000_S420000x1_S420000_n_0_n_n_0_1_1_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def gather_S100000x256_S420000x1_S420000x256_1_0_n_n_0_1_1256 : GatherDims S100000x256 S420000x1 S420000x256 where
  offsetDims := [1]
  collapsedSliceDims := [0]
  operandBatchingDims := []
  startIndicesBatchingDims := []
  startIndexMap := [0]
  indexVectorDim := 1
  sliceSizes := ![1, 256]
  wf := gather_S100000x256_S420000x1_S420000x256_1_0_n_n_0_1_1256_wf
def scatter_S100000x256_S420000x1_S420000x256_1_0_0_1 : ScatterDims S100000x256 S420000x1 S420000x256 where
  updateWindowDims := [1]
  insertedWindowDims := [0]
  scatterDimsToOperandDims := [0]
  indexVectorDim := 1
  wf := scatter_S100000x256_S420000x1_S420000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S420000x1_S420000x128_1_0_n_n_0_1_1128 : GatherDims S100000x128 S420000x1 S420000x128 where
  offsetDims := [1]
  collapsedSliceDims := [0]
  operandBatchingDims := []
  startIndicesBatchingDims := []
  startIndexMap := [0]
  indexVectorDim := 1
  sliceSizes := ![1, 128]
  wf := gather_S100000x128_S420000x1_S420000x128_1_0_n_n_0_1_1128_wf
def scatter_S100000x128_S420000x1_S420000x128_1_0_0_1 : ScatterDims S100000x128 S420000x1 S420000x128 where
  updateWindowDims := [1]
  insertedWindowDims := [0]
  scatterDimsToOperandDims := [0]
  indexVectorDim := 1
  wf := scatter_S100000x128_S420000x1_S420000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S420000x1_S420000x64_1_0_n_n_0_1_164 : GatherDims S100000x64 S420000x1 S420000x64 where
  offsetDims := [1]
  collapsedSliceDims := [0]
  operandBatchingDims := []
  startIndicesBatchingDims := []
  startIndexMap := [0]
  indexVectorDim := 1
  sliceSizes := ![1, 64]
  wf := gather_S100000x64_S420000x1_S420000x64_1_0_n_n_0_1_164_wf
def scatter_S100000x64_S420000x1_S420000x64_1_0_0_1 : ScatterDims S100000x64 S420000x1 S420000x64 where
  updateWindowDims := [1]
  insertedWindowDims := [0]
  scatterDimsToOperandDims := [0]
  indexVectorDim := 1
  wf := scatter_S100000x64_S420000x1_S420000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S420000x1_S420000x32_1_0_n_n_0_1_132 : GatherDims S100000x32 S420000x1 S420000x32 where
  offsetDims := [1]
  collapsedSliceDims := [0]
  operandBatchingDims := []
  startIndicesBatchingDims := []
  startIndexMap := [0]
  indexVectorDim := 1
  sliceSizes := ![1, 32]
  wf := gather_S100000x32_S420000x1_S420000x32_1_0_n_n_0_1_132_wf
def scatter_S100000x32_S420000x1_S420000x32_1_0_0_1 : ScatterDims S100000x32 S420000x1 S420000x32 where
  updateWindowDims := [1]
  insertedWindowDims := [0]
  scatterDimsToOperandDims := [0]
  indexVectorDim := 1
  wf := scatter_S100000x32_S420000x1_S420000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x2_S64x2_1_0_0_1_n_n : DotDims S64x16 S16x2 S64x2 where
  lhsContracting := [1]
  rhsContracting := [0]
  lhsNonContracting := [0]
  rhsNonContracting := [1]
  lhsBatch := []
  rhsBatch := []
  wf := dot_S64x16_S16x2_S64x2_1_0_0_1_n_n_wf

class Facts : Prop extends Facts₀ where

variable [Facts]
-- ==== Proof.Whole.lean ====
/-
  The whole run of the program with EVERY buffer of the TensorCore named at its end: the program is four grid launches
  among stretches of host operations, and after the last stretch each unscoped buffer holds what the fold of those
  stretches and launches over the launch memory leaves there (the generated frame's last boundary contents). The
  generated frame keeps only the argument arrays of that final state; the value claim needs the result buffer too, so
  the same launch is stated once more with the whole final state kept.
-/
import proofs.«100563_j18107582120448_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in its final state every unscoped
    buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

end Cert.KernelIdeal.Whole

end
-- ==== Proof.Dense0.lean ====
/-
  The first dense layer's product, read off the grid: the kernel tiles the rows of a [100000, 512] array into twenty
  blocks of 5000 rows, keeps the whole [512, 256] weight resident, and writes block t of the [100000, 256] output as
  (block t of the rows) · (weights) into a zero accumulator. At the extended reals entry (r, c) of block t is
  ∑ₖ a(5000·t + r, k) · w(k, c), so the twenty blocks are the restrictions of ONE whole-array function — the plain
  matrix product, entry (i₀, i₁) = ∑ₖ a(i₀, k) · w(k, i₁) — and they cover every row (row i₀ lies in block i₀ / 5000).
-/
import proofs.«100563_j18107582120448_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.Pipeline (Dat)

/-- The row operand's index for output entry `i` and contraction index `k`: (i₀, k). -/
abbrev rowAt (i : S100000x256.Idx) (k : Fin 512) : S100000x512.Idx := fun a => match a with
  | ⟨0, _⟩ => ⟨(i 0).val, (i 0).isLt⟩
  | ⟨1, _⟩ => ⟨k.val, k.isLt⟩
/-- The weight operand's index for output entry `i` and contraction index `k`: (k, i₁). -/
abbrev colAt (i : S100000x256.Idx) (k : Fin 512) : S512x256.Idx := fun a => match a with
  | ⟨0, _⟩ => ⟨k.val, k.isLt⟩
  | ⟨1, _⟩ => ⟨(i 1).val, (i 1).isLt⟩

/-- The whole matrix product over the extended reals: entry `i` is ∑ₖ a(i₀, k) · w(k, i₁). -/
def product (a : S100000x512.Idx → EReal) (w : S512x256.Idx → EReal) : S100000x256.Idx → EReal :=
  fun i => ∑ k : Fin 512, a (rowAt i k) * w (colAt i k)

/-- Inside one block: the row operand's index for block entry `j`. -/
abbrev blkRowAt (j : S5000x256.Idx) (k : Fin 512) : S5000x512.Idx := fun a => match a with
  | ⟨0, _⟩ => ⟨(j 0).val, (j 0).isLt⟩
  | ⟨1, _⟩ => ⟨k.val, k.isLt⟩
abbrev blkColAt (j : S5000x256.Idx) (k : Fin 512) : S512x256.Idx := fun a => match a with
  | ⟨0, _⟩ => ⟨k.val, k.isLt⟩
  | ⟨1, _⟩ => ⟨(j 1).val, (j 1).isLt⟩

theorem origin : (![0, 0] : Fin 2 → Nat) = fun _ => 0 := funext fun a => by fin_cases a <;> rfl

/-- The contraction's operand indices, coordinate by coordinate: the row operand is read at (j₀, k), the weight at (k, j₁). -/
theorem lhs_coord0 (j : S5000x256.Idx) (q : dot_S5000x512_S512x256_S5000x256_1_0_0_1_n_n.contr.Idx) :
    (dot_S5000x512_S512x256_S5000x256_1_0_0_1_n_n.lhsIdx j q 0).val = (j 0).val := by
  unfold DotDims.lhsIdx
  rw [dif_neg (show ¬(0 : Fin S5000x512.rank) ∈ dot_S5000x512_S512x256_S5000x256_1_0_0_1_n_n.lhsBatch by decide), dif_pos (show (0 : Fin S5000x512.rank) ∈ dot_S5000x512_S512x256_S5000x256_1_0_0_1_n_n.lhsNonContracting by decide)]
  rfl
theorem lhs_coord1 (j : S5000x256.Idx) (q : dot_S5000x512_S512x256_S5000x256_1_0_0_1_n_n.contr.Idx) :
    (dot_S5000x512_S512x256_S5000x256_1_0_0_1_n_n.lhsIdx j q 1).val = (q ⟨0, by decide⟩).val :=
  dot_S5000x512_S512x256_S5000x256_1_0_0_1_n_n.lhsIdx_val_of_single rfl j q
theorem rhs_coord0 (j : S5000x256.Idx) (q : dot_S5000x512_S512x256_S5000x256_1_0_0_1_n_n.contr.Idx) :
    (dot_S5000x512_S512x256_S5000x256_1_0_0_1_n_n.rhsIdx j q 0).val = (q ⟨0, by decide⟩).val :=
  dot_S5000x512_S512x256_S5000x256_1_0_0_1_n_n.rhsIdx_val_of_single rfl j q
theorem rhs_coord1 (j : S5000x256.Idx) (q : dot_S5000x512_S512x256_S5000x256_1_0_0_1_n_n.contr.Idx) :
    (dot_S5000x512_S512x256_S5000x256_1_0_0_1_n_n.rhsIdx j q 1).val = (j 1).val := by
  unfold DotDims.rhsIdx
  rw [dif_neg (show ¬(1 : Fin S512x256.rank) ∈ dot_S5000x512_S512x256_S5000x256_1_0_0_1_n_n.rhsBatch by decide), dif_pos (show (1 : Fin S512x256.rank) ∈ dot_S5000x512_S512x256_S5000x256_1_0_0_1_n_n.rhsNonContracting by decide)]
  rfl

/-- One block's product into the zero accumulator, entry by entry: the contraction sum over the 512 columns. -/
theorem block_apply (x0 : Vec Ideal S5000x512 .bf16) (x1 : Vec Ideal S512x256 .bf16) (j : S5000x256.Idx) :
    k0_pay1 (F := Ideal) x0 x1 j = ∑ k : Fin 512, x0 (blkRowAt j k) * x1 (blkColAt j k) := by
  unfold k0_pay1
  rw [shapeCast_self, shapeCast_self]
  simp only [matmul]
  rw [Ideal.matmul_constant_zero_apply, ← Equiv.sum_comp (ValueIdx.contrEquiv1 dot_S5000x512_S512x256_S5000x256_1_0_0_1_n_n 512 rfl rfl).symm]
  refine Finset.sum_congr rfl fun k _ => ?_
  have hk := ValueIdx.contrEquiv1_symm_val dot_S5000x512_S512x256_S5000x256_1_0_0_1_n_n 512 rfl rfl k
  have el : dot_S5000x512_S512x256_S5000x256_1_0_0_1_n_n.lhsIdx j ((ValueIdx.contrEquiv1 dot_S5000x512_S512x256_S5000x256_1_0_0_1_n_n 512 rfl rfl).symm k) = blkRowAt j k := funext fun a => Fin.ext (by
    match a with
    | ⟨0, _⟩ => exact lhs_coord0 _ _
    | ⟨1, _⟩ => exact (lhs_coord1 _ _).trans hk)
  have er : dot_S5000x512_S512x256_S5000x256_1_0_0_1_n_n.rhsIdx j ((ValueIdx.contrEquiv1 dot_S5000x512_S512x256_S5000x256_1_0_0_1_n_n 512 rfl rfl).symm k) = blkColAt j k := funext fun a => Fin.ext (by
    match a with
    | ⟨0, _⟩ => exact (rhs_coord0 _ _).trans hk
    | ⟨1, _⟩ => exact rhs_coord1 _ _)
  rw [el, er]

/-- The index maps over the twenty grid points, decided once: the row blocks of the input and of the output move
    together down the rows, the weight block never moves, and no block moves along the columns. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

variable (V : (c : Dev nD) → (b : Ref sig .tc) → Buf (Elt Ideal) ((c : Thread nD τ).loc b))

set_option maxHeartbeats 2000000 in
/-- What grid point `t` writes back is block `t` of the whole product of the two arrays as the launch finds them. -/
theorem flushed_eq (c : Dev nD) (t : Fin cfg0.N) :
    (dat0 (F := Ideal) V c).flushed 2 t
      = ((cfg0.win 2).blk t).view.read (Elt Ideal) (product (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero origin]
  simp only [View.ld_unit_zero (S := S5000x512) origin, View.ld_unit_zero (S := S512x256) origin]
  obtain ⟨e0, e1, e2, e3, e4, e5⟩ := index_facts t
  funext j
  show k0_pay1 (F := Ideal) (iblk0 V c 0 t) (iblk0 V c 1 t) j = product (V c (Pipeline.arrRef spec0 0)) (V c (Pipeline.arrRef spec0 1)) (((cfg0.win 2).blk t).view.emb j)
  refine (block_apply (iblk0 V c 0 t) (iblk0 V c 1 t) j).trans ?_
  unfold product
  refine Finset.sum_congr rfl fun k _ => ?_
  have hk : k.val < 512 := k.isLt
  have h0 : ((cfg0.win 0).blk t).view.emb (blkRowAt j k) = rowAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have h1 : ((cfg0.win 1).blk t).view.emb (blkColAt j k) = colAt (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega
  have l : iblk0 V c 0 t (blkRowAt j k) = V c (Pipeline.arrRef spec0 0) (rowAt (((cfg0.win 2).blk t).view.emb j) k) := by
    show V c (Pipeline.arrRef spec0 0) (((cfg0.win 0).blk t).view.emb (blkRowAt j k)) = _
    rw [h0]
  have r : iblk0 V c 1 t (blkColAt j k) = V c (Pipeline.arrRef spec0 1) (colAt (((cfg0.win 2).blk t).view.emb j) k) := by
    show V c (Pipeline.arrRef spec0 1) (((cfg0.win 1).blk t).view.emb (blkColAt j k)) = _
    rw [h1]
  rw [l, r]

/-- An index of the output array is in point `t`'s block iff each coordinate is in the block's range on its axis. -/
theorem mem_block (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v34).slice (win0_2.rect t)).set ↔ _
  rw [View.set_slice_whole, Rect.mem_set_unit]
  exact Iff.rfl

/-- Every entry of the output is written: row `i₀` lies in block `i₀ / 5000`, and a block spans all 256 columns. -/
theorem covered (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  let t : Fin cfg0.N := ⟨(i 0).val / 5000, by show (i 0).val / 5000 < 20; omega⟩
  obtain ⟨e0, e1, e2, e3, e4, e5⟩ := index_facts t
  have e5' : win0_2.index t (0 : Fin 2) = (i 0).val / 5000 := e5
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After the launch the output array IS the whole product of the two input arrays as the launch found them. -/
theorem final (c : Dev nD) :
    (dat0 (F := Ideal) V c).arrAt 2 cfg0.N = product (V c (Pipeline.arrRef spec0 0)) (V c (Pipeline.arrRef spec0 1)) :=
  (dat0 (F := Ideal) V c).arrAt_eq_of_cover 2 _ (fun t _ => flushed_eq V c t) covered

end Cert.KernelIdeal.Dense0

end
-- ==== Proof.Dense1.lean ====
/-
  The second dense layer's product, read off the grid: the kernel tiles the rows of a [100000, 256] array into twenty
  blocks of 5000 rows, keeps the whole [256, 128] weight resident, and writes block t of the [100000, 128] output as
  (block t of the rows) · (weights) into a zero accumulator. At the extended reals entry (r, c) of block t is
  ∑ₖ a(5000·t + r, k) · w(k, c), so the twenty blocks are the restrictions of ONE whole-array function — the plain
  matrix product, entry (i₀, i₁) = ∑ₖ a(i₀, k) · w(k, i₁) — and they cover every row (row i₀ lies in block i₀ / 5000).
-/
import proofs.«100563_j18107582120448_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen Idealize.ShloMosaic Idealize.ShloMosaic.TcCoe Idealize.SL.Sem
open Idealize.ShloMosaic.Pipeline (Dat)

/-- The row operand's index for output entry `i` and contraction index `k`: (i₀, k). -/
abbrev rowAt (i : S100000x128.Idx) (k : Fin 256) : S100000x256.Idx := fun a => match a with
  | ⟨0, _⟩ => ⟨(i 0).val, (i 0).isLt⟩
  | ⟨1, _⟩ => ⟨k.val, k.isLt⟩
/-- The weight operand's index for output entry `i` and contraction index `k`: (k, i₁). -/
abbrev colAt (i : S100000x128.Idx) (k : Fin 256) : S256x128.Idx := fun a => match a with
  | ⟨0, _⟩ => ⟨k.val, k.isLt⟩
  | ⟨1, _⟩ => ⟨(i 1).val, (i 1).isLt⟩

/-- The whole matrix product over the extended reals: entry `i` is ∑ₖ a(i₀, k) · w(k, i₁). -/
def product (a : S100000x256.Idx → EReal) (w : S256x128.Idx → EReal) : S100000x128.Idx → EReal :=
  fun i => ∑ k : Fin 256, a (rowAt i k) * w (colAt i k)

/-- Inside one block: the row operand's index for block entry `j`. -/
abbrev blkRowAt (j : S5000x128.Idx) (k : Fin 256) : S5000x256.Idx := fun a => match a with
  | ⟨0, _⟩ => ⟨(j 0).val, (j 0).isLt⟩
  | ⟨1, _⟩ => ⟨k.val, k.isLt⟩
abbrev blkColAt (j : S5000x128.Idx) (k : Fin 256) : S256x128.Idx := fun a => match a with
  | ⟨0, _⟩ => ⟨k.val, k.isLt⟩
  | ⟨1, _⟩ => ⟨(j 1).val, (j 1).isLt⟩

theorem origin : (![0, 0] : Fin 2 → Nat) = fun _ => 0 := funext fun a => by fin_cases a <;> rfl

/-- The contraction's operand indices, coordinate by coordinate: the row operand is read at (j₀, k), the weight at (k, j₁). -/
theorem lhs_coord0 (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_coord1 (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem rhs_coord0 (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem rhs_coord1 (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- One block's product into the zero accumulator, entry by entry: the contraction sum over the 256 columns. -/
theorem block_apply (x0 : Vec Ideal S5000x256 .bf16) (x1 : Vec Ideal S256x128 .bf16) (j : S5000x128.Idx) :
    k1_pay1 (F := Ideal) x0 x1 j = ∑ k : Fin 256, x0 (blkRowAt j k) * x1 (blkColAt j k) := by
  unfold k1_pay1
  rw [shapeCast_self, shapeCast_self]
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = blkRowAt j k := funext fun a => Fin.ext (by
    match a with
    | ⟨0, _⟩ => exact lhs_coord0 _ _
    | ⟨1, _⟩ => exact (lhs_coord1 _ _).trans hk)
  have er : dot_S5000x256_S256x128_S5000x128_1_0_0_1_n_n.rhsIdx j ((ValueIdx.contrEquiv1 dot_S5000x256_S256x128_S5000x128_1_0_0_1_n_n 256 rfl rfl).symm k) = blkColAt j k := funext fun a => Fin.ext (by
    match a with
    | ⟨0, _⟩ => exact (rhs_coord0 _ _).trans hk
    | ⟨1, _⟩ => exact rhs_coord1 _ _)
  rw [el, er]

/-- The index maps over the twenty grid points, decided once: the row blocks of the input and of the output move
    together down the rows, the weight block never moves, and no block moves along the columns. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

variable (V : (c : Dev nD) → (b : Ref sig .tc) → Buf (Elt Ideal) ((c : Thread nD τ).loc b))

set_option maxHeartbeats 2000000 in
/-- What grid point `t` writes back is block `t` of the whole product of the two arrays as the launch finds them. -/
theorem flushed_eq (c : Dev nD) (t : Fin cfg1.N) :
    (dat1 (F := Ideal) V c).flushed 2 t
      = ((cfg1.win 2).blk t).view.read (Elt Ideal) (product (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero origin]
  simp only [View.ld_unit_zero (S := S5000x256) origin, View.ld_unit_zero (S := S256x128) origin]
  obtain ⟨e0, e1, e2, e3, e4, e5⟩ := index_facts t
  funext j
  show k1_pay1 (F := Ideal) (iblk1 V c 0 t) (iblk1 V c 1 t) j = product (V c (Pipeline.arrRef spec1 0)) (V c (Pipeline.arrRef spec1 1)) (((cfg1.win 2).blk t).view.emb j)
  refine (block_apply (iblk1 V c 0 t) (iblk1 V c 1 t) j).trans ?_
  unfold product
  refine Finset.sum_congr rfl fun k _ => ?_
  have hk : k.val < 256 := k.isLt
  have h0 : ((cfg1.win 0).blk t).view.emb (blkRowAt j k) = rowAt (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * k.val = k.val; omega
  have h1 : ((cfg1.win 1).blk t).view.emb (blkColAt j k) = colAt (((cfg1.win 2).blk t).view.emb j) k := by
    funext a; apply Fin.ext
    match a with
    | ⟨0, _⟩ => show win1_1.index t (0 : Fin 2) * 256 + 1 * k.val = k.val; omega
    | ⟨1, _⟩ => show win1_1.index t (1 : Fin 2) * 128 + 1 * (j 1).val = win1_2.index t (1 : Fin 2) * 128 + 1 * (j 1).val; omega
  have l : iblk1 V c 0 t (blkRowAt j k) = V c (Pipeline.arrRef spec1 0) (rowAt (((cfg1.win 2).blk t).view.emb j) k) := by
    show V c (Pipeline.arrRef spec1 0) (((cfg1.win 0).blk t).view.emb (blkRowAt j k)) = _
    rw [h0]
  have r : iblk1 V c 1 t (blkColAt j k) = V c (Pipeline.arrRef spec1 1) (colAt (((cfg1.win 2).blk t).view.emb j) k) := by
    show V c (Pipeline.arrRef spec1 1) (((cfg1.win 1).blk t).view.emb (blkColAt j k)) = _
    rw [h1]
  rw [l, r]

/-- An index of the output array is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v54).slice (win1_2.rect t)).set ↔ _
  rw [View.set_slice_whole, Rect.mem_set_unit]
  exact Iff.rfl

/-- Every entry of the output is written: row `i₀` lies in block `i₀ / 5000`, and a block spans all 128 columns. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨e0, e1, e2, e3, e4, e5⟩ := index_facts t
  have e5' : win1_2.index t (0 : Fin 2) = (i 0).val / 5000 := e5
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the launch the output array IS the whole product of the two input arrays as the launch found them. -/
theorem final (c : Dev nD) :
    (dat1 (F := Ideal) V c).arrAt 2 cfg1.N = product (V c (Pipeline.arrRef spec1 0)) (V c (Pipeline.arrRef spec1 1)) :=
  (dat1 (F := Ideal) V c).arrAt_eq_of_cover 2 _ (fun t _ => flushed_eq V c t) covered

end Cert.KernelIdeal.Dense1

end
-- ==== Proof.Dense2.lean ====
/-
  The third dense layer's product, read off the grid: the kernel tiles the rows of a [100000, 128] array into twenty
  blocks of 5000 rows, keeps the whole [128, 64] weight resident, and writes block t of the [100000, 64] output as
  (block t of the rows) · (weights) into a zero accumulator. At the extended reals entry (r, c) of block t is
  ∑ₖ a(5000·t + r, k) · w(k, c), so the twenty blocks are the restrictions of ONE whole-array function — the plain
  matrix product, entry (i₀, i₁) = ∑ₖ a(i₀, k) · w(k, i₁) — and they cover every row (row i₀ lies in block i₀ / 5000).
-/
import proofs.«100563_j18107582120448_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.Pipeline (Dat)

/-- The row operand's index for output entry `i` and contraction index `k`: (i₀, k). -/
abbrev rowAt (i : S100000x64.Idx) (k : Fin 128) : S100000x128.Idx := fun a => match a with
  | ⟨0, _⟩ => ⟨(i 0).val, (i 0).isLt⟩
  | ⟨1, _⟩ => ⟨k.val, k.isLt⟩
/-- The weight operand's index for output entry `i` and contraction index `k`: (k, i₁). -/
abbrev colAt (i : S100000x64.Idx) (k : Fin 128) : S128x64.Idx := fun a => match a with
  | ⟨0, _⟩ => ⟨k.val, k.isLt⟩
  | ⟨1, _⟩ => ⟨(i 1).val, (i 1).isLt⟩

/-- The whole matrix product over the extended reals: entry `i` is ∑ₖ a(i₀, k) · w(k, i₁). -/
def product (a : S100000x128.Idx → EReal) (w : S128x64.Idx → EReal) : S100000x64.Idx → EReal :=
  fun i => ∑ k : Fin 128, a (rowAt i k) * w (colAt i k)

/-- Inside one block: the row operand's index for block entry `j`. -/
abbrev blkRowAt (j : S5000x64.Idx) (k : Fin 128) : S5000x128.Idx := fun a => match a with
  | ⟨0, _⟩ => ⟨(j 0).val, (j 0).isLt⟩
  | ⟨1, _⟩ => ⟨k.val, k.isLt⟩
abbrev blkColAt (j : S5000x64.Idx) (k : Fin 128) : S128x64.Idx := fun a => match a with
  | ⟨0, _⟩ => ⟨k.val, k.isLt⟩
  | ⟨1, _⟩ => ⟨(j 1).val, (j 1).isLt⟩

theorem origin : (![0, 0] : Fin 2 → Nat) = fun _ => 0 := funext fun a => by fin_cases a <;> rfl

/-- The contraction's operand indices, coordinate by coordinate: the row operand is read at (j₀, k), the weight at (k, j₁). -/
theorem lhs_coord0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_coord1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_coord0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_coord1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- One block's product into the zero accumulator, entry by entry: the contraction sum over the 128 columns. -/
theorem block_apply (x0 : Vec Ideal S5000x128 .bf16) (x1 : Vec Ideal S128x64 .bf16) (j : S5000x64.Idx) :
    k2_pay1 (F := Ideal) x0 x1 j = ∑ k : Fin 128, x0 (blkRowAt j k) * x1 (blkColAt j k) := by
  unfold k2_pay1
  rw [shapeCast_self, shapeCast_self]
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blkRowAt j k := funext fun a => Fin.ext (by
    match a with
    | ⟨0, _⟩ => exact lhs_coord0 _ _
    | ⟨1, _⟩ => exact (lhs_coord1 _ _).trans hk)
  have er : dot_S5000x128_S128x64_S5000x64_1_0_0_1_n_n.rhsIdx j ((ValueIdx.contrEquiv1 dot_S5000x128_S128x64_S5000x64_1_0_0_1_n_n 128 rfl rfl).symm k) = blkColAt j k := funext fun a => Fin.ext (by
    match a with
    | ⟨0, _⟩ => exact (rhs_coord0 _ _).trans hk
    | ⟨1, _⟩ => exact rhs_coord1 _ _)
  rw [el, er]

/-- The index maps over the twenty grid points, decided once: the row blocks of the input and of the output move
    together down the rows, the weight block never moves, and no block moves along the columns. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

variable (V : (c : Dev nD) → (b : Ref sig .tc) → Buf (Elt Ideal) ((c : Thread nD τ).loc b))

set_option maxHeartbeats 2000000 in
/-- What grid point `t` writes back is block `t` of the whole product of the two arrays as the launch finds them. -/
theorem flushed_eq (c : Dev nD) (t : Fin cfg2.N) :
    (dat2 (F := Ideal) V c).flushed 2 t
      = ((cfg2.win 2).blk t).view.read (Elt Ideal) (product (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero origin]
  simp only [View.ld_unit_zero (S := S5000x128) origin, View.ld_unit_zero (S := S128x64) origin]
  obtain ⟨e0, e1, e2, e3, e4, e5⟩ := index_facts t
  funext j
  show k2_pay1 (F := Ideal) (iblk2 V c 0 t) (iblk2 V c 1 t) j = product (V c (Pipeline.arrRef spec2 0)) (V c (Pipeline.arrRef spec2 1)) (((cfg2.win 2).blk t).view.emb j)
  refine (block_apply (iblk2 V c 0 t) (iblk2 V c 1 t) j).trans ?_
  unfold product
  refine Finset.sum_congr rfl fun k _ => ?_
  have hk : k.val < 128 := k.isLt
  have h0 : ((cfg2.win 0).blk t).view.emb (blkRowAt j k) = rowAt (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (blkColAt j k) = colAt (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  have l : iblk2 V c 0 t (blkRowAt j k) = V c (Pipeline.arrRef spec2 0) (rowAt (((cfg2.win 2).blk t).view.emb j) k) := by
    show V c (Pipeline.arrRef spec2 0) (((cfg2.win 0).blk t).view.emb (blkRowAt j k)) = _
    rw [h0]
  have r : iblk2 V c 1 t (blkColAt j k) = V c (Pipeline.arrRef spec2 1) (colAt (((cfg2.win 2).blk t).view.emb j) k) := by
    show V c (Pipeline.arrRef spec2 1) (((cfg2.win 1).blk t).view.emb (blkColAt j k)) = _
    rw [h1]
  rw [l, r]

/-- An index of the output array is in point `t`'s block iff each coordinate is in the block's range on its axis. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v74).slice (win2_2.rect t)).set ↔ _
  rw [View.set_slice_whole, Rect.mem_set_unit]
  exact Iff.rfl

/-- Every entry of the output is written: row `i₀` lies in block `i₀ / 5000`, and a block spans all 64 columns. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 5000, by show (i 0).val / 5000 < 20; omega⟩
  obtain ⟨e0, e1, e2, e3, e4, e5⟩ := index_facts t
  have e5' : win2_2.index t (0 : Fin 2) = (i 0).val / 5000 := e5
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the launch the output array IS the whole product of the two input arrays as the launch found them. -/
theorem final (c : Dev nD) :
    (dat2 (F := Ideal) V c).arrAt 2 cfg2.N = product (V c (Pipeline.arrRef spec2 0)) (V c (Pipeline.arrRef spec2 1)) :=
  (dat2 (F := Ideal) V c).arrAt_eq_of_cover 2 _ (fun t _ => flushed_eq V c t) covered

end Cert.KernelIdeal.Dense2

end
-- ==== Proof.Dense3.lean ====
/-
  The fourth dense layer's product, read off the grid: the kernel tiles the rows of a [100000, 64] array into twenty
  blocks of 5000 rows, keeps the whole [64, 32] weight resident, and writes block t of the [100000, 32] output as
  (block t of the rows) · (weights) into a zero accumulator. At the extended reals entry (r, c) of block t is
  ∑ₖ a(5000·t + r, k) · w(k, c), so the twenty blocks are the restrictions of ONE whole-array function — the plain
  matrix product, entry (i₀, i₁) = ∑ₖ a(i₀, k) · w(k, i₁) — and they cover every row (row i₀ lies in block i₀ / 5000).
-/
import proofs.«100563_j18107582120448_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense3

open Cert.KernelIdeal Cert.KernelIdeal.Gen Idealize.ShloMosaic Idealize.ShloMosaic.TcCoe Idealize.SL.Sem
open Idealize.ShloMosaic.Pipeline (Dat)

/-- The row operand's index for output entry `i` and contraction index `k`: (i₀, k). -/
abbrev rowAt (i : S100000x32.Idx) (k : Fin 64) : S100000x64.Idx := fun a => match a with
  | ⟨0, _⟩ => ⟨(i 0).val, (i 0).isLt⟩
  | ⟨1, _⟩ => ⟨k.val, k.isLt⟩
/-- The weight operand's index for output entry `i` and contraction index `k`: (k, i₁). -/
abbrev colAt (i : S100000x32.Idx) (k : Fin 64) : S64x32.Idx := fun a => match a with
  | ⟨0, _⟩ => ⟨k.val, k.isLt⟩
  | ⟨1, _⟩ => ⟨(i 1).val, (i 1).isLt⟩

/-- The whole matrix product over the extended reals: entry `i` is ∑ₖ a(i₀, k) · w(k, i₁). -/
def product (a : S100000x64.Idx → EReal) (w : S64x32.Idx → EReal) : S100000x32.Idx → EReal :=
  fun i => ∑ k : Fin 64, a (rowAt i k) * w (colAt i k)

/-- Inside one block: the row operand's index for block entry `j`. -/
abbrev blkRowAt (j : S5000x32.Idx) (k : Fin 64) : S5000x64.Idx := fun a => match a with
  | ⟨0, _⟩ => ⟨(j 0).val, (j 0).isLt⟩
  | ⟨1, _⟩ => ⟨k.val, k.isLt⟩
abbrev blkColAt (j : S5000x32.Idx) (k : Fin 64) : S64x32.Idx := fun a => match a with
  | ⟨0, _⟩ => ⟨k.val, k.isLt⟩
  | ⟨1, _⟩ => ⟨(j 1).val, (j 1).isLt⟩

theorem origin : (![0, 0] : Fin 2 → Nat) = fun _ => 0 := funext fun a => by fin_cases a <;> rfl

/-- The contraction's operand indices, coordinate by coordinate: the row operand is read at (j₀, k), the weight at (k, j₁). -/
theorem lhs_coord0 (j : S5000x32.Idx) (q : dot_S5000x64_S64x32_S5000x32_1_0_0_1_n_n.contr.Idx) :
    (dot_S5000x64_S64x32_S5000x32_1_0_0_1_n_n.lhsIdx j q 0).val = (j 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_coord1 (j : S5000x32.Idx) (q : dot_S5000x64_S64x32_S5000x32_1_0_0_1_n_n.contr.Idx) :
    (dot_S5000x64_S64x32_S5000x32_1_0_0_1_n_n.lhsIdx j q 1).val = (q ⟨0, by decide⟩).val :=
  dot_S5000x64_S64x32_S5000x32_1_0_0_1_n_n.lhsIdx_val_of_single rfl j q
theorem rhs_coord0 (j : S5000x32.Idx) (q : dot_S5000x64_S64x32_S5000x32_1_0_0_1_n_n.contr.Idx) :
    (dot_S5000x64_S64x32_S5000x32_1_0_0_1_n_n.rhsIdx j q 0).val = (q ⟨0, by decide⟩).val :=
  dot_S5000x64_S64x32_S5000x32_1_0_0_1_n_n.rhsIdx_val_of_single rfl j q
theorem rhs_coord1 (j : S5000x32.Idx) (q : dot_S5000x64_S64x32_S5000x32_1_0_0_1_n_n.contr.Idx) :
    (dot_S5000x64_S64x32_S5000x32_1_0_0_1_n_n.rhsIdx j q 1).val = (j 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- One block's product into the zero accumulator, entry by entry: the contraction sum over the 64 columns. -/
theorem block_apply (x0 : Vec Ideal S5000x64 .bf16) (x1 : Vec Ideal S64x32 .bf16) (j : S5000x32.Idx) :
    k3_pay1 (F := Ideal) x0 x1 j = ∑ k : Fin 64, x0 (blkRowAt j k) * x1 (blkColAt j k) := by
  unfold k3_pay1
  rw [shapeCast_self, shapeCast_self]
  simp only [matmul]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx j ((ValueIdx.contrEquiv1 dot_S5000x64_S64x32_S5000x32_1_0_0_1_n_n 64 rfl rfl).symm k) = blkRowAt j k := funext fun a => Fin.ext (by
    match a with
    | ⟨0, _⟩ => exact lhs_coord0 _ _
    | ⟨1, _⟩ => exact (lhs_coord1 _ _).trans hk)
  have er : dot_S5000x64_S64x32_S5000x32_1_0_0_1_n_n.rhsIdx j ((ValueIdx.contrEquiv1 dot_S5000x64_S64x32_S5000x32_1_0_0_1_n_n 64 rfl rfl).symm k) = blkColAt j k := funext fun a => Fin.ext (by
    match a with
    | ⟨0, _⟩ => exact (rhs_coord0 _ _).trans hk
    | ⟨1, _⟩ => exact rhs_coord1 _ _)
  rw [el, er]

/-- The index maps over the twenty grid points, decided once: the row blocks of the input and of the output move
    together down the rows, the weight block never moves, and no block moves along the columns. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

variable (V : (c : Dev nD) → (b : Ref sig .tc) → Buf (Elt Ideal) ((c : Thread nD τ).loc b))

set_option maxHeartbeats 2000000 in
/-- What grid point `t` writes back is block `t` of the whole product of the two arrays as the launch finds them. -/
theorem flushed_eq (c : Dev nD) (t : Fin cfg3.N) :
    (dat3 (F := Ideal) V c).flushed 2 t
      = ((cfg3.win 2).blk t).view.read (Elt Ideal) (product (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero origin]
  simp only [View.ld_unit_zero (S := S5000x64) origin, View.ld_unit_zero (S := S64x32) origin]
  obtain ⟨e0, e1, e2, e3, e4, e5⟩ := index_facts t
  funext j
  show k3_pay1 (F := Ideal) (iblk3 V c 0 t) (iblk3 V c 1 t) j = product (V c (Pipeline.arrRef spec3 0)) (V c (Pipeline.arrRef spec3 1)) (((cfg3.win 2).blk t).view.emb j)
  refine (block_apply (iblk3 V c 0 t) (iblk3 V c 1 t) j).trans ?_
  unfold product
  refine Finset.sum_congr rfl fun k _ => ?_
  have hk : k.val < 64 := k.isLt
  have h0 : ((cfg3.win 0).blk t).view.emb (blkRowAt j k) = rowAt (((cfg3.win 2).blk t).view.emb j) k := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * k.val = k.val; omega
  have h1 : ((cfg3.win 1).blk t).view.emb (blkColAt j k) = colAt (((cfg3.win 2).blk t).view.emb j) k := by
    funext a; apply Fin.ext
    match a with
    | ⟨0, _⟩ => show win3_1.index t (0 : Fin 2) * 64 + 1 * k.val = k.val; omega
    | ⟨1, _⟩ => show win3_1.index t (1 : Fin 2) * 32 + 1 * (j 1).val = win3_2.index t (1 : Fin 2) * 32 + 1 * (j 1).val; omega
  have l : iblk3 V c 0 t (blkRowAt j k) = V c (Pipeline.arrRef spec3 0) (rowAt (((cfg3.win 2).blk t).view.emb j) k) := by
    show V c (Pipeline.arrRef spec3 0) (((cfg3.win 0).blk t).view.emb (blkRowAt j k)) = _
    rw [h0]
  have r : iblk3 V c 1 t (blkColAt j k) = V c (Pipeline.arrRef spec3 1) (colAt (((cfg3.win 2).blk t).view.emb j) k) := by
    show V c (Pipeline.arrRef spec3 1) (((cfg3.win 1).blk t).view.emb (blkColAt j k)) = _
    rw [h1]
  rw [l, r]

/-- An index of the output array is in point `t`'s block iff each coordinate is in the block's range on its axis. -/
theorem mem_block (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v94).slice (win3_2.rect t)).set ↔ _
  rw [View.set_slice_whole, Rect.mem_set_unit]
  exact Iff.rfl

/-- Every entry of the output is written: row `i₀` lies in block `i₀ / 5000`, and a block spans all 32 columns. -/
theorem covered (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  let t : Fin cfg3.N := ⟨(i 0).val / 5000, by show (i 0).val / 5000 < 20; omega⟩
  obtain ⟨e0, e1, e2, e3, e4, e5⟩ := index_facts t
  have e5' : win3_2.index t (0 : Fin 2) = (i 0).val / 5000 := e5
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- After the launch the output array IS the whole product of the two input arrays as the launch found them. -/
theorem final (c : Dev nD) :
    (dat3 (F := Ideal) V c).arrAt 2 cfg3.N = product (V c (Pipeline.arrRef spec3 0)) (V c (Pipeline.arrRef spec3 1)) :=
  (dat3 (F := Ideal) V c).arrAt_eq_of_cover 2 _ (fun t _ => flushed_eq V c t) covered

end Cert.KernelIdeal.Dense3

end
-- ==== Proof.Basics.lean ====
/-
  Shared by the layer modules: at the extended reals narrowing a float array's format is the identity.
-/
import proofs.«100563_j18107582120448_1_alg».proof.Proof.Gen.KernelIdeal.Frame
import proofs.«100563_j18107582120448_1_alg».proof.Proof.RefRead
import proofs.«100563_j18107582120448_1_alg».proof.Proof.Dense0
import proofs.«100563_j18107582120448_1_alg».proof.Proof.Dense1
import proofs.«100563_j18107582120448_1_alg».proof.Proof.Dense2
import proofs.«100563_j18107582120448_1_alg».proof.Proof.Dense3
import Idealize.ShloMosaic.Lib.StableHlo.Run
import Idealize.ShloMosaic.PureOps.Ideal

noncomputable section

namespace Cert.KernelIdeal.Layers

open Idealize.ShloMosaic

/-- Narrowing a float array's format changes nothing at the extended reals. -/
theorem truncf_id {s : Shape} {φ ψ : FTy} (x : FVec Ideal s φ) (h : ψ.bits < φ.bits) : truncf ψ x h = x := rfl

end Cert.KernelIdeal.Layers

end
-- ==== Proof.Stage0.lean ====
/-
  Before the first launch. The host computes, from the edge list alone, the source and destination index of every
  edge (the given edges followed by one self-loop per node) and each edge's weight — the product of the inverse square
  roots of its two endpoints' in-degrees, zero where a degree is not positive — and narrows the node features and the
  first weight matrix to the launch's format. The reference computes the same three edge arrays by the same
  operations, and the narrowing is the identity at the extended reals; the bias and weight arguments of the later
  layers are untouched. The edge weight is read in three steps (the degree's comparison and reciprocal root; the choice
  between them and zero; the two gathers and their product), each from the values the previous step named. Then the
  launch: its output array is the reference's first dot product, and everything else is as the launch found it.
-/
import proofs.«100563_j18107582120448_1_alg».proof.Proof.Basics

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
set_option maxHeartbeats 16000000 in
theorem pre_v3 : W1 m ρ c (Proc.devRef .tc main_v3) = Cert.ReferenceIdeal.ReadP.val_main_v3 (F := Ideal) (m ((c : Thread nD τ).loc main_arg1)) := by
  dsimp only [W1, W0]
  dsimp only [hostOps0]
  after_results <;> rfl

set_option maxHeartbeats 16000000 in
theorem pre_v6 : W1 m ρ c (Proc.devRef .tc main_v6) = Cert.ReferenceIdeal.ReadP.val_main_v6 (F := Ideal) (m ((c : Thread nD τ).loc main_arg1)) := by
  dsimp only [W1, W0]
  dsimp only [hostOps0]
  after_results <;> rfl

set_option maxHeartbeats 16000000 in
theorem pre_v12 : W1 m ρ c (Proc.devRef .tc main_v12) = Cert.ReferenceIdeal.ReadP.val_main_v12 (F := Ideal) (m ((c : Thread nD τ).loc main_arg1)) := by
  dsimp only [W1, W0]
  dsimp only [hostOps0]
  after_results <;> rfl

set_option maxHeartbeats 16000000 in
theorem pre_v15 : W1 m ρ c (Proc.devRef .tc main_v15) = Cert.ReferenceIdeal.ReadP.val_main_v15 (F := Ideal) (m ((c : Thread nD τ).loc main_arg1)) := by
  dsimp only [W1, W0]
  dsimp only [hostOps0]
  after_results <;> rfl

set_option maxHeartbeats 16000000 in
theorem pre_cst_3 : W1 m ρ c (Proc.devRef .tc main_cst_3) = Cert.ReferenceIdeal.ReadP.val_main_cst_3 (F := Ideal)  := by
  dsimp only [W1, W0]
  dsimp only [hostOps0]
  after_results <;> rfl

/-- The inverse square root of the degree where the degree is positive, zero elsewhere. -/
theorem pre_v16 : W2 m ρ c (Proc.devRef .tc main_v16) = Cert.ReferenceIdeal.ReadP.val_main_v16 (F := Ideal) (m ((c : Thread nD τ).loc main_arg1)) := by
  have h12 := pre_v12 m ρ c
  have h15 := pre_v15 m ρ c
  have hc := pre_cst_3 m ρ c
  dsimp only [W2]
  generalize W1 m ρ c = Wx at h12 h15 hc ⊢
  dsimp only [hostOps0_1]
  after_results
  refine Eq.trans (b := select (Wx (Proc.devRef .tc main_v12)) (Wx (Proc.devRef .tc main_v15)) (broadcastInDim S100000 ![] bcast_S_S100000 (Wx (Proc.devRef .tc main_cst_3)))) rfl ?_
  rw [h12, h15, hc]
  rfl

theorem pre2_v3 : W2 m ρ c (Proc.devRef .tc main_v3) = Cert.ReferenceIdeal.ReadP.val_main_v3 (F := Ideal) (m ((c : Thread nD τ).loc main_arg1)) := by
  have h := pre_v3 m ρ c
  dsimp only [W2]
  generalize W1 m ρ c = Wx at h ⊢
  dsimp only [hostOps0_1]
  after_results
  exact h

theorem pre2_v6 : W2 m ρ c (Proc.devRef .tc main_v6) = Cert.ReferenceIdeal.ReadP.val_main_v6 (F := Ideal) (m ((c : Thread nD τ).loc main_arg1)) := by
  have h := pre_v6 m ρ c
  dsimp only [W2]
  generalize W1 m ρ c = Wx at h ⊢
  dsimp only [hostOps0_1]
  after_results
  exact h

set_option maxHeartbeats 16000000 in
/-- Each edge's weight at the first launch's entry is the reference's. -/
theorem in0_v31 : W3 m ρ c (Proc.devRef .tc main_v31) = Cert.ReferenceIdeal.ReadP.val_main_v31 (F := Ideal) (m ((c : Thread nD τ).loc main_arg1)) := by
  have h16 := pre_v16 m ρ c
  have h3 := pre2_v3 m ρ c
  have h6 := pre2_v6 m ρ c
  dsimp only [W3]
  generalize W2 m ρ c = Wx at h16 h3 h6 ⊢
  dsimp only [hostOps0_2]
  after_results
  rw [h16, h3, h6]
  rfl

theorem in0_v3 : W3 m ρ c (Proc.devRef .tc main_v3) = Cert.ReferenceIdeal.ReadP.val_main_v3 (F := Ideal) (m ((c : Thread nD τ).loc main_arg1)) := by
  have h := pre2_v3 m ρ c
  dsimp only [W3]
  generalize W2 m ρ c = Wx at h ⊢
  dsimp only [hostOps0_2]
  after_results
  exact h

theorem in0_v6 : W3 m ρ c (Proc.devRef .tc main_v6) = Cert.ReferenceIdeal.ReadP.val_main_v6 (F := Ideal) (m ((c : Thread nD τ).loc main_arg1)) := by
  have h := pre2_v6 m ρ c
  dsimp only [W3]
  generalize W2 m ρ c = Wx at h ⊢
  dsimp only [hostOps0_2]
  after_results
  exact h

theorem in0_L : W3 m ρ c (Proc.devRef .tc main_v32) = (m ((c : Thread nD τ).loc main_arg0)) := by
  dsimp only [W3, W2, W1, W0]
  dsimp only [hostOps0_2, hostOps0_1, hostOps0]
  after_results <;> rfl

theorem in0_R : W3 m ρ c (Proc.devRef .tc main_v33) = (m ((c : Thread nD τ).loc main_arg3)) := by
  dsimp only [W3, W2, W1, W0]
  dsimp only [hostOps0_2, hostOps0_1, hostOps0]
  after_results <;> rfl

theorem in0_arg2 : W3 m ρ c (Proc.devRef .tc main_arg2) = (m ((c : Thread nD τ).loc main_arg2)) := by
  dsimp only [W3, W2, W1, W0]
  dsimp only [hostOps0_2, hostOps0_1, hostOps0]
  after_results <;> rfl

theorem in0_arg4 : W3 m ρ c (Proc.devRef .tc main_arg4) = (m ((c : Thread nD τ).loc main_arg4)) := by
  dsimp only [W3, W2, W1, W0]
  dsimp only [hostOps0_2, hostOps0_1, hostOps0]
  after_results <;> rfl

theorem in0_arg5 : W3 m ρ c (Proc.devRef .tc main_arg5) = (m ((c : Thread nD τ).loc main_arg5)) := by
  dsimp only [W3, W2, W1, W0]
  dsimp only [hostOps0_2, hostOps0_1, hostOps0]
  after_results <;> rfl

theorem in0_arg6 : W3 m ρ c (Proc.devRef .tc main_arg6) = (m ((c : Thread nD τ).loc main_arg6)) := by
  dsimp only [W3, W2, W1, W0]
  dsimp only [hostOps0_2, hostOps0_1, hostOps0]
  after_results <;> rfl

theorem in0_arg7 : W3 m ρ c (Proc.devRef .tc main_arg7) = (m ((c : Thread nD τ).loc main_arg7)) := by
  dsimp only [W3, W2, W1, W0]
  dsimp only [hostOps0_2, hostOps0_1, hostOps0]
  after_results <;> rfl

theorem in0_arg8 : W3 m ρ c (Proc.devRef .tc main_arg8) = (m ((c : Thread nD τ).loc main_arg8)) := by
  dsimp only [W3, W2, W1, W0]
  dsimp only [hostOps0_2, hostOps0_1, hostOps0]
  after_results <;> rfl

theorem in0_arg9 : W3 m ρ c (Proc.devRef .tc main_arg9) = (m ((c : Thread nD τ).loc main_arg9)) := by
  dsimp only [W3, W2, W1, W0]
  dsimp only [hostOps0_2, hostOps0_1, hostOps0]
  after_results <;> rfl

theorem in0_arg10 : W3 m ρ c (Proc.devRef .tc main_arg10) = (m ((c : Thread nD τ).loc main_arg10)) := by
  dsimp only [W3, W2, W1, W0]
  dsimp only [hostOps0_2, hostOps0_1, hostOps0]
  after_results <;> rfl

theorem in0_arg11 : W3 m ρ c (Proc.devRef .tc main_arg11) = (m ((c : Thread nD τ).loc main_arg11)) := by
  dsimp only [W3, W2, W1, W0]
  dsimp only [hostOps0_2, hostOps0_1, hostOps0]
  after_results <;> rfl

theorem in0_arg12 : W3 m ρ c (Proc.devRef .tc main_arg12) = (m ((c : Thread nD τ).loc main_arg12)) := by
  dsimp only [W3, W2, W1, W0]
  dsimp only [hostOps0_2, hostOps0_1, hostOps0]
  after_results <;> rfl

theorem in0_arg13 : W3 m ρ c (Proc.devRef .tc main_arg13) = (m ((c : Thread nD τ).loc main_arg13)) := by
  dsimp only [W3, W2, W1, W0]
  dsimp only [hostOps0_2, hostOps0_1, hostOps0]
  after_results <;> rfl

theorem in0_arg14 : W3 m ρ c (Proc.devRef .tc main_arg14) = (m ((c : Thread nD τ).loc main_arg14)) := by
  dsimp only [W3, W2, W1, W0]
  dsimp only [hostOps0_2, hostOps0_1, hostOps0]
  after_results <;> rfl

/-- After launch 0: its output array is the reference's dot product of the same operands. -/
theorem out0_O : W4 m ρ c (Proc.devRef .tc main_v34) = Cert.ReferenceIdeal.ReadP.val_main_v32 (F := Ideal) (m ((c : Thread nD τ).loc main_arg0)) (m ((c : Thread nD τ).loc main_arg3)) := by
  refine (W4_arr m ρ c 2).trans ?_
  refine (Dense0.final (V3 m ρ) c).trans ?_
  rw [show V3 m ρ c (Pipeline.arrRef spec0 0) = (m ((c : Thread nD τ).loc main_arg0)) from in0_L m ρ c,
    show V3 m ρ c (Pipeline.arrRef spec0 1) = (m ((c : Thread nD τ).loc main_arg3)) from in0_R m ρ c]
  funext i
  rw [Cert.ReferenceIdeal.ReadP.val_main_v32_apply]
  rfl

theorem out0_v3 : W4 m ρ c (Proc.devRef .tc main_v3) = Cert.ReferenceIdeal.ReadP.val_main_v3 (F := Ideal) (m ((c : Thread nD τ).loc main_arg1)) :=
  (W4_of_ne m ρ c main_v3 (by decide)).trans (in0_v3 m ρ c)

theorem out0_v6 : W4 m ρ c (Proc.devRef .tc main_v6) = Cert.ReferenceIdeal.ReadP.val_main_v6 (F := Ideal) (m ((c : Thread nD τ).loc main_arg1)) :=
  (W4_of_ne m ρ c main_v6 (by decide)).trans (in0_v6 m ρ c)

theorem out0_v31 : W4 m ρ c (Proc.devRef .tc main_v31) = Cert.ReferenceIdeal.ReadP.val_main_v31 (F := Ideal) (m ((c : Thread nD τ).loc main_arg1)) :=
  (W4_of_ne m ρ c main_v31 (by decide)).trans (in0_v31 m ρ c)

theorem out0_arg2 : W4 m ρ c (Proc.devRef .tc main_arg2) = (m ((c : Thread nD τ).loc main_arg2)) :=
  (W4_of_ne m ρ c main_arg2 (by decide)).trans (in0_arg2 m ρ c)

theorem out0_arg4 : W4 m ρ c (Proc.devRef .tc main_arg4) = (m ((c : Thread nD τ).loc main_arg4)) :=
  (W4_of_ne m ρ c main_arg4 (by decide)).trans (in0_arg4 m ρ c)

theorem out0_arg5 : W4 m ρ c (Proc.devRef .tc main_arg5) = (m ((c : Thread nD τ).loc main_arg5)) :=
  (W4_of_ne m ρ c main_arg5 (by decide)).trans (in0_arg5 m ρ c)

theorem out0_arg6 : W4 m ρ c (Proc.devRef .tc main_arg6) = (m ((c : Thread nD τ).loc main_arg6)) :=
  (W4_of_ne m ρ c main_arg6 (by decide)).trans (in0_arg6 m ρ c)

theorem out0_arg7 : W4 m ρ c (Proc.devRef .tc main_arg7) = (m ((c : Thread nD τ).loc main_arg7)) :=
  (W4_of_ne m ρ c main_arg7 (by decide)).trans (in0_arg7 m ρ c)

theorem out0_arg8 : W4 m ρ c (Proc.devRef .tc main_arg8) = (m ((c : Thread nD τ).loc main_arg8)) :=
  (W4_of_ne m ρ c main_arg8 (by decide)).trans (in0_arg8 m ρ c)

theorem out0_arg9 : W4 m ρ c (Proc.devRef .tc main_arg9) = (m ((c : Thread nD τ).loc main_arg9)) :=
  (W4_of_ne m ρ c main_arg9 (by decide)).trans (in0_arg9 m ρ c)

theorem out0_arg10 : W4 m ρ c (Proc.devRef .tc main_arg10) = (m ((c : Thread nD τ).loc main_arg10)) :=
  (W4_of_ne m ρ c main_arg10 (by decide)).trans (in0_arg10 m ρ c)

theorem out0_arg11 : W4 m ρ c (Proc.devRef .tc main_arg11) = (m ((c : Thread nD τ).loc main_arg11)) :=
  (W4_of_ne m ρ c main_arg11 (by decide)).trans (in0_arg11 m ρ c)

theorem out0_arg12 : W4 m ρ c (Proc.devRef .tc main_arg12) = (m ((c : Thread nD τ).loc main_arg12)) :=
  (W4_of_ne m ρ c main_arg12 (by decide)).trans (in0_arg12 m ρ c)

theorem out0_arg13 : W4 m ρ c (Proc.devRef .tc main_arg13) = (m ((c : Thread nD τ).loc main_arg13)) :=
  (W4_of_ne m ρ c main_arg13 (by decide)).trans (in0_arg13 m ρ c)

theorem out0_arg14 : W4 m ρ c (Proc.devRef .tc main_arg14) = (m ((c : Thread nD τ).loc main_arg14)) :=
  (W4_of_ne m ρ c main_arg14 (by decide)).trans (in0_arg14 m ρ c)

end Cert.KernelIdeal.Layers

end
-- ==== Proof.Stage1.lean ====
/-
  Between launch 0 and launch 1. From the previous launch's output h the host gathers the source node's row for
  every edge, scales it by the edge's weight, adds the scaled rows into their destination nodes, adds the bias, clamps
  at zero, and narrows the result and the next weight matrix to the launch's format: the same operations, on the same
  values, as the reference's layer — so the second launch starts from the reference's activations — and then the
  launch's output array is the reference's next dot product.
-/
import proofs.«100563_j18107582120448_1_alg».proof.Proof.Stage0

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
set_option maxHeartbeats 16000000 in
/-- The layer before its clamp: gathered, scaled, added into destinations, plus the bias. -/
theorem mid1_pre : W5 m ρ c (Proc.devRef .tc main_v50) = Cert.ReferenceIdeal.ReadP.val_main_v48 (F := Ideal) (m ((c : Thread nD τ).loc main_arg0)) (m ((c : Thread nD τ).loc main_arg1)) (m ((c : Thread nD τ).loc main_arg3)) (m ((c : Thread nD τ).loc main_arg4)) := by
  have hO := out0_O m ρ c
  have h3 := out0_v3 m ρ c
  have h6 := out0_v6 m ρ c
  have h31 := out0_v31 m ρ c
  have hb := out0_arg4 m ρ c
  dsimp only [W5]
  generalize W4 m ρ c = Wx at hO h3 h6 h31 hb ⊢
  dsimp only [hostOps1]
  after_results
  rw [hO, h3, h6, h31, hb]
  rfl

/-- Clamped at zero. -/
theorem mid1_relu : W6 m ρ c (Proc.devRef .tc main_v51) = Cert.ReferenceIdeal.ReadP.val_main_v49 (F := Ideal) (m ((c : Thread nD τ).loc main_arg0)) (m ((c : Thread nD τ).loc main_arg1)) (m ((c : Thread nD τ).loc main_arg3)) (m ((c : Thread nD τ).loc main_arg4)) := by
  have h := mid1_pre m ρ c
  dsimp only [W6]
  generalize W5 m ρ c = Wx at h ⊢
  dsimp only [hostOps1_1]
  after_results
  refine Eq.trans (b := maximumf (Wx (Proc.devRef .tc main_v50)) (broadcastInDim S100000x256 ![] bcast_S_S100000x256 (constant S_ .f32 0x00000000#32))) rfl ?_
  rw [h]
  rfl

/-- The launch's row operand is the reference's activation after the previous layer. -/
theorem in1_L : W7 m ρ c (Proc.devRef .tc main_v52) = Cert.ReferenceIdeal.ReadP.val_main_v49 (F := Ideal) (m ((c : Thread nD τ).loc main_arg0)) (m ((c : Thread nD τ).loc main_arg1)) (m ((c : Thread nD τ).loc main_arg3)) (m ((c : Thread nD τ).loc main_arg4)) := by
  have h := mid1_relu m ρ c
  dsimp only [W7]
  generalize W6 m ρ c = Wx at h ⊢
  dsimp only [hostOps1_2]
  after_results
  rw [h, truncf_id]

theorem in1_R : W7 m ρ c (Proc.devRef .tc main_v53) = (m ((c : Thread nD τ).loc main_arg5)) := by
  have hw := out0_arg5 m ρ c
  dsimp only [W7, W6, W5]
  generalize W4 m ρ c = Wx at hw ⊢
  dsimp only [hostOps1_2, hostOps1_1, hostOps1]
  after_results
  rw [hw]
  rfl

theorem in1_v3 : W7 m ρ c (Proc.devRef .tc main_v3) = Cert.ReferenceIdeal.ReadP.val_main_v3 (F := Ideal) (m ((c : Thread nD τ).loc main_arg1)) := by
  have h := out0_v3 m ρ c
  dsimp only [W7, W6, W5]
  generalize W4 m ρ c = Wx at h ⊢
  dsimp only [hostOps1_2, hostOps1_1, hostOps1]
  after_results
  exact h

theorem in1_v6 : W7 m ρ c (Proc.devRef .tc main_v6) = Cert.ReferenceIdeal.ReadP.val_main_v6 (F := Ideal) (m ((c : Thread nD τ).loc main_arg1)) := by
  have h := out0_v6 m ρ c
  dsimp only [W7, W6, W5]
  generalize W4 m ρ c = Wx at h ⊢
  dsimp only [hostOps1_2, hostOps1_1, hostOps1]
  after_results
  exact h

theorem in1_v31 : W7 m ρ c (Proc.devRef .tc main_v31) = Cert.ReferenceIdeal.ReadP.val_main_v31 (F := Ideal) (m ((c : Thread nD τ).loc main_arg1)) := by
  have h := out0_v31 m ρ c
  dsimp only [W7, W6, W5]
  generalize W4 m ρ c = Wx at h ⊢
  dsimp only [hostOps1_2, hostOps1_1, hostOps1]
  after_results
  exact h

theorem in1_arg2 : W7 m ρ c (Proc.devRef .tc main_arg2) = (m ((c : Thread nD τ).loc main_arg2)) := by
  have h := out0_arg2 m ρ c
  dsimp only [W7, W6, W5]
  generalize W4 m ρ c = Wx at h ⊢
  dsimp only [hostOps1_2, hostOps1_1, hostOps1]
  after_results
  exact h

theorem in1_arg6 : W7 m ρ c (Proc.devRef .tc main_arg6) = (m ((c : Thread nD τ).loc main_arg6)) := by
  have h := out0_arg6 m ρ c
  dsimp only [W7, W6, W5]
  generalize W4 m ρ c = Wx at h ⊢
  dsimp only [hostOps1_2, hostOps1_1, hostOps1]
  after_results
  exact h

theorem in1_arg7 : W7 m ρ c (Proc.devRef .tc main_arg7) = (m ((c : Thread nD τ).loc main_arg7)) := by
  have h := out0_arg7 m ρ c
  dsimp only [W7, W6, W5]
  generalize W4 m ρ c = Wx at h ⊢
  dsimp only [hostOps1_2, hostOps1_1, hostOps1]
  after_results
  exact h

theorem in1_arg8 : W7 m ρ c (Proc.devRef .tc main_arg8) = (m ((c : Thread nD τ).loc main_arg8)) := by
  have h := out0_arg8 m ρ c
  dsimp only [W7, W6, W5]
  generalize W4 m ρ c = Wx at h ⊢
  dsimp only [hostOps1_2, hostOps1_1, hostOps1]
  after_results
  exact h

theorem in1_arg9 : W7 m ρ c (Proc.devRef .tc main_arg9) = (m ((c : Thread nD τ).loc main_arg9)) := by
  have h := out0_arg9 m ρ c
  dsimp only [W7, W6, W5]
  generalize W4 m ρ c = Wx at h ⊢
  dsimp only [hostOps1_2, hostOps1_1, hostOps1]
  after_results
  exact h

theorem in1_arg10 : W7 m ρ c (Proc.devRef .tc main_arg10) = (m ((c : Thread nD τ).loc main_arg10)) := by
  have h := out0_arg10 m ρ c
  dsimp only [W7, W6, W5]
  generalize W4 m ρ c = Wx at h ⊢
  dsimp only [hostOps1_2, hostOps1_1, hostOps1]
  after_results
  exact h

theorem in1_arg11 : W7 m ρ c (Proc.devRef .tc main_arg11) = (m ((c : Thread nD τ).loc main_arg11)) := by
  have h := out0_arg11 m ρ c
  dsimp only [W7, W6, W5]
  generalize W4 m ρ c = Wx at h ⊢
  dsimp only [hostOps1_2, hostOps1_1, hostOps1]
  after_results
  exact h

theorem in1_arg12 : W7 m ρ c (Proc.devRef .tc main_arg12) = (m ((c : Thread nD τ).loc main_arg12)) := by
  have h := out0_arg12 m ρ c
  dsimp only [W7, W6, W5]
  generalize W4 m ρ c = Wx at h ⊢
  dsimp only [hostOps1_2, hostOps1_1, hostOps1]
  after_results
  exact h

theorem in1_arg13 : W7 m ρ c (Proc.devRef .tc main_arg13) = (m ((c : Thread nD τ).loc main_arg13)) := by
  have h := out0_arg13 m ρ c
  dsimp only [W7, W6, W5]
  generalize W4 m ρ c = Wx at h ⊢
  dsimp only [hostOps1_2, hostOps1_1, hostOps1]
  after_results
  exact h

theorem in1_arg14 : W7 m ρ c (Proc.devRef .tc main_arg14) = (m ((c : Thread nD τ).loc main_arg14)) := by
  have h := out0_arg14 m ρ c
  dsimp only [W7, W6, W5]
  generalize W4 m ρ c = Wx at h ⊢
  dsimp only [hostOps1_2, hostOps1_1, hostOps1]
  after_results
  exact h

/-- After launch 1: its output array is the reference's dot product of the same operands. -/
theorem out1_O : W8 m ρ c (Proc.devRef .tc main_v54) = Cert.ReferenceIdeal.ReadP.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W8_arr m ρ c 2).trans ?_
  refine (Dense1.final (V7 m ρ) c).trans ?_
  rw [show V7 m ρ c (Pipeline.arrRef spec1 0) = Cert.ReferenceIdeal.ReadP.val_main_v49 (F := Ideal) (m ((c : Thread nD τ).loc main_arg0)) (m ((c : Thread nD τ).loc main_arg1)) (m ((c : Thread nD τ).loc main_arg3)) (m ((c : Thread nD τ).loc main_arg4)) from in1_L m ρ c,
    show V7 m ρ c (Pipeline.arrRef spec1 1) = (m ((c : Thread nD τ).loc main_arg5)) from in1_R m ρ c]
  funext i
  rw [Cert.ReferenceIdeal.ReadP.val_main_v50_apply]
  rfl

theorem out1_v3 : W8 m ρ c (Proc.devRef .tc main_v3) = Cert.ReferenceIdeal.ReadP.val_main_v3 (F := Ideal) (m ((c : Thread nD τ).loc main_arg1)) :=
  (W8_of_ne m ρ c main_v3 (by decide)).trans (in1_v3 m ρ c)

theorem out1_v6 : W8 m ρ c (Proc.devRef .tc main_v6) = Cert.ReferenceIdeal.ReadP.val_main_v6 (F := Ideal) (m ((c : Thread nD τ).loc main_arg1)) :=
  (W8_of_ne m ρ c main_v6 (by decide)).trans (in1_v6 m ρ c)

theorem out1_v31 : W8 m ρ c (Proc.devRef .tc main_v31) = Cert.ReferenceIdeal.ReadP.val_main_v31 (F := Ideal) (m ((c : Thread nD τ).loc main_arg1)) :=
  (W8_of_ne m ρ c main_v31 (by decide)).trans (in1_v31 m ρ c)

theorem out1_arg2 : W8 m ρ c (Proc.devRef .tc main_arg2) = (m ((c : Thread nD τ).loc main_arg2)) :=
  (W8_of_ne m ρ c main_arg2 (by decide)).trans (in1_arg2 m ρ c)

theorem out1_arg6 : W8 m ρ c (Proc.devRef .tc main_arg6) = (m ((c : Thread nD τ).loc main_arg6)) :=
  (W8_of_ne m ρ c main_arg6 (by decide)).trans (in1_arg6 m ρ c)

theorem out1_arg7 : W8 m ρ c (Proc.devRef .tc main_arg7) = (m ((c : Thread nD τ).loc main_arg7)) :=
  (W8_of_ne m ρ c main_arg7 (by decide)).trans (in1_arg7 m ρ c)

theorem out1_arg8 : W8 m ρ c (Proc.devRef .tc main_arg8) = (m ((c : Thread nD τ).loc main_arg8)) :=
  (W8_of_ne m ρ c main_arg8 (by decide)).trans (in1_arg8 m ρ c)

theorem out1_arg9 : W8 m ρ c (Proc.devRef .tc main_arg9) = (m ((c : Thread nD τ).loc main_arg9)) :=
  (W8_of_ne m ρ c main_arg9 (by decide)).trans (in1_arg9 m ρ c)

theorem out1_arg10 : W8 m ρ c (Proc.devRef .tc main_arg10) = (m ((c : Thread nD τ).loc main_arg10)) :=
  (W8_of_ne m ρ c main_arg10 (by decide)).trans (in1_arg10 m ρ c)

theorem out1_arg11 : W8 m ρ c (Proc.devRef .tc main_arg11) = (m ((c : Thread nD τ).loc main_arg11)) :=
  (W8_of_ne m ρ c main_arg11 (by decide)).trans (in1_arg11 m ρ c)

theorem out1_arg12 : W8 m ρ c (Proc.devRef .tc main_arg12) = (m ((c : Thread nD τ).loc main_arg12)) :=
  (W8_of_ne m ρ c main_arg12 (by decide)).trans (in1_arg12 m ρ c)

theorem out1_arg13 : W8 m ρ c (Proc.devRef .tc main_arg13) = (m ((c : Thread nD τ).loc main_arg13)) :=
  (W8_of_ne m ρ c main_arg13 (by decide)).trans (in1_arg13 m ρ c)

theorem out1_arg14 : W8 m ρ c (Proc.devRef .tc main_arg14) = (m ((c : Thread nD τ).loc main_arg14)) :=
  (W8_of_ne m ρ c main_arg14 (by decide)).trans (in1_arg14 m ρ c)

end Cert.KernelIdeal.Layers

end
-- ==== Proof.Stage2.lean ====
/-
  Between launch 1 and launch 2. From the previous launch's output h the host gathers the source node's row for
  every edge, scales it by the edge's weight, adds the scaled rows into their destination nodes, adds the bias, clamps
  at zero, and narrows the result and the next weight matrix to the launch's format: the same operations, on the same
  values, as the reference's layer — so the third launch starts from the reference's activations — and then the
  launch's output array is the reference's next dot product.
-/
import proofs.«100563_j18107582120448_1_alg».proof.Proof.Stage1

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
set_option maxHeartbeats 16000000 in
/-- The layer before its clamp: gathered, scaled, added into destinations, plus the bias. -/
theorem mid2_pre : W9 m ρ c (Proc.devRef .tc main_v70) = Cert.ReferenceIdeal.ReadP.val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have hO := out1_O m ρ c
  have h3 := out1_v3 m ρ c
  have h6 := out1_v6 m ρ c
  have h31 := out1_v31 m ρ c
  have hb := out1_arg6 m ρ c
  dsimp only [W9]
  generalize W8 m ρ c = Wx at hO h3 h6 h31 hb ⊢
  dsimp only [hostOps2]
  after_results
  rw [hO, h3, h6, h31, hb]
  rfl

/-- Clamped at zero. -/
theorem mid2_relu : W10 m ρ c (Proc.devRef .tc main_v71) = Cert.ReferenceIdeal.ReadP.val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h := mid2_pre m ρ c
  dsimp only [W10]
  generalize W9 m ρ c = Wx at h ⊢
  dsimp only [hostOps2_1]
  after_results
  refine Eq.trans (b := maximumf (Wx (Proc.devRef .tc main_v70)) (broadcastInDim S100000x128 ![] bcast_S_S100000x128 (constant S_ .f32 0x00000000#32))) rfl ?_
  rw [h]
  rfl

/-- The launch's row operand is the reference's activation after the previous layer. -/
theorem in2_L : W11 m ρ c (Proc.devRef .tc main_v72) = Cert.ReferenceIdeal.ReadP.val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h := mid2_relu m ρ c
  dsimp only [W11]
  generalize W10 m ρ c = Wx at h ⊢
  dsimp only [hostOps2_2]
  after_results
  rw [h, truncf_id]

theorem in2_R : W11 m ρ c (Proc.devRef .tc main_v73) = (m ((c : Thread nD τ).loc main_arg7)) := by
  have hw := out1_arg7 m ρ c
  dsimp only [W11, W10, W9]
  generalize W8 m ρ c = Wx at hw ⊢
  dsimp only [hostOps2_2, hostOps2_1, hostOps2]
  after_results
  rw [hw]
  rfl

theorem in2_v3 : W11 m ρ c (Proc.devRef .tc main_v3) = Cert.ReferenceIdeal.ReadP.val_main_v3 (F := Ideal) (m ((c : Thread nD τ).loc main_arg1)) := by
  have h := out1_v3 m ρ c
  dsimp only [W11, W10, W9]
  generalize W8 m ρ c = Wx at h ⊢
  dsimp only [hostOps2_2, hostOps2_1, hostOps2]
  after_results
  exact h

theorem in2_v6 : W11 m ρ c (Proc.devRef .tc main_v6) = Cert.ReferenceIdeal.ReadP.val_main_v6 (F := Ideal) (m ((c : Thread nD τ).loc main_arg1)) := by
  have h := out1_v6 m ρ c
  dsimp only [W11, W10, W9]
  generalize W8 m ρ c = Wx at h ⊢
  dsimp only [hostOps2_2, hostOps2_1, hostOps2]
  after_results
  exact h

theorem in2_v31 : W11 m ρ c (Proc.devRef .tc main_v31) = Cert.ReferenceIdeal.ReadP.val_main_v31 (F := Ideal) (m ((c : Thread nD τ).loc main_arg1)) := by
  have h := out1_v31 m ρ c
  dsimp only [W11, W10, W9]
  generalize W8 m ρ c = Wx at h ⊢
  dsimp only [hostOps2_2, hostOps2_1, hostOps2]
  after_results
  exact h

theorem in2_arg2 : W11 m ρ c (Proc.devRef .tc main_arg2) = (m ((c : Thread nD τ).loc main_arg2)) := by
  have h := out1_arg2 m ρ c
  dsimp only [W11, W10, W9]
  generalize W8 m ρ c = Wx at h ⊢
  dsimp only [hostOps2_2, hostOps2_1, hostOps2]
  after_results
  exact h

theorem in2_arg8 : W11 m ρ c (Proc.devRef .tc main_arg8) = (m ((c : Thread nD τ).loc main_arg8)) := by
  have h := out1_arg8 m ρ c
  dsimp only [W11, W10, W9]
  generalize W8 m ρ c = Wx at h ⊢
  dsimp only [hostOps2_2, hostOps2_1, hostOps2]
  after_results
  exact h

theorem in2_arg9 : W11 m ρ c (Proc.devRef .tc main_arg9) = (m ((c : Thread nD τ).loc main_arg9)) := by
  have h := out1_arg9 m ρ c
  dsimp only [W11, W10, W9]
  generalize W8 m ρ c = Wx at h ⊢
  dsimp only [hostOps2_2, hostOps2_1, hostOps2]
  after_results
  exact h

theorem in2_arg10 : W11 m ρ c (Proc.devRef .tc main_arg10) = (m ((c : Thread nD τ).loc main_arg10)) := by
  have h := out1_arg10 m ρ c
  dsimp only [W11, W10, W9]
  generalize W8 m ρ c = Wx at h ⊢
  dsimp only [hostOps2_2, hostOps2_1, hostOps2]
  after_results
  exact h

theorem in2_arg11 : W11 m ρ c (Proc.devRef .tc main_arg11) = (m ((c : Thread nD τ).loc main_arg11)) := by
  have h := out1_arg11 m ρ c
  dsimp only [W11, W10, W9]
  generalize W8 m ρ c = Wx at h ⊢
  dsimp only [hostOps2_2, hostOps2_1, hostOps2]
  after_results
  exact h

theorem in2_arg12 : W11 m ρ c (Proc.devRef .tc main_arg12) = (m ((c : Thread nD τ).loc main_arg12)) := by
  have h := out1_arg12 m ρ c
  dsimp only [W11, W10, W9]
  generalize W8 m ρ c = Wx at h ⊢
  dsimp only [hostOps2_2, hostOps2_1, hostOps2]
  after_results
  exact h

theorem in2_arg13 : W11 m ρ c (Proc.devRef .tc main_arg13) = (m ((c : Thread nD τ).loc main_arg13)) := by
  have h := out1_arg13 m ρ c
  dsimp only [W11, W10, W9]
  generalize W8 m ρ c = Wx at h ⊢
  dsimp only [hostOps2_2, hostOps2_1, hostOps2]
  after_results
  exact h

theorem in2_arg14 : W11 m ρ c (Proc.devRef .tc main_arg14) = (m ((c : Thread nD τ).loc main_arg14)) := by
  have h := out1_arg14 m ρ c
  dsimp only [W11, W10, W9]
  generalize W8 m ρ c = Wx at h ⊢
  dsimp only [hostOps2_2, hostOps2_1, hostOps2]
  after_results
  exact h

/-- After launch 2: its output array is the reference's dot product of the same operands. -/
theorem out2_O : W12 m ρ c (Proc.devRef .tc main_v74) = Cert.ReferenceIdeal.ReadP.val_main_v68 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ?_
  refine (Dense2.final (V11 m ρ) c).trans ?_
  rw [show V11 m ρ c (Pipeline.arrRef spec2 0) = Cert.ReferenceIdeal.ReadP.val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) from in2_L m ρ c,
    show V11 m ρ c (Pipeline.arrRef spec2 1) = (m ((c : Thread nD τ).loc main_arg7)) from in2_R m ρ c]
  funext i
  rw [Cert.ReferenceIdeal.ReadP.val_main_v68_apply]
  rfl

theorem out2_v3 : W12 m ρ c (Proc.devRef .tc main_v3) = Cert.ReferenceIdeal.ReadP.val_main_v3 (F := Ideal) (m ((c : Thread nD τ).loc main_arg1)) :=
  (W12_of_ne m ρ c main_v3 (by decide)).trans (in2_v3 m ρ c)

theorem out2_v6 : W12 m ρ c (Proc.devRef .tc main_v6) = Cert.ReferenceIdeal.ReadP.val_main_v6 (F := Ideal) (m ((c : Thread nD τ).loc main_arg1)) :=
  (W12_of_ne m ρ c main_v6 (by decide)).trans (in2_v6 m ρ c)

theorem out2_v31 : W12 m ρ c (Proc.devRef .tc main_v31) = Cert.ReferenceIdeal.ReadP.val_main_v31 (F := Ideal) (m ((c : Thread nD τ).loc main_arg1)) :=
  (W12_of_ne m ρ c main_v31 (by decide)).trans (in2_v31 m ρ c)

theorem out2_arg2 : W12 m ρ c (Proc.devRef .tc main_arg2) = (m ((c : Thread nD τ).loc main_arg2)) :=
  (W12_of_ne m ρ c main_arg2 (by decide)).trans (in2_arg2 m ρ c)

theorem out2_arg8 : W12 m ρ c (Proc.devRef .tc main_arg8) = (m ((c : Thread nD τ).loc main_arg8)) :=
  (W12_of_ne m ρ c main_arg8 (by decide)).trans (in2_arg8 m ρ c)

theorem out2_arg9 : W12 m ρ c (Proc.devRef .tc main_arg9) = (m ((c : Thread nD τ).loc main_arg9)) :=
  (W12_of_ne m ρ c main_arg9 (by decide)).trans (in2_arg9 m ρ c)

theorem out2_arg10 : W12 m ρ c (Proc.devRef .tc main_arg10) = (m ((c : Thread nD τ).loc main_arg10)) :=
  (W12_of_ne m ρ c main_arg10 (by decide)).trans (in2_arg10 m ρ c)

theorem out2_arg11 : W12 m ρ c (Proc.devRef .tc main_arg11) = (m ((c : Thread nD τ).loc main_arg11)) :=
  (W12_of_ne m ρ c main_arg11 (by decide)).trans (in2_arg11 m ρ c)

theorem out2_arg12 : W12 m ρ c (Proc.devRef .tc main_arg12) = (m ((c : Thread nD τ).loc main_arg12)) :=
  (W12_of_ne m ρ c main_arg12 (by decide)).trans (in2_arg12 m ρ c)

theorem out2_arg13 : W12 m ρ c (Proc.devRef .tc main_arg13) = (m ((c : Thread nD τ).loc main_arg13)) :=
  (W12_of_ne m ρ c main_arg13 (by decide)).trans (in2_arg13 m ρ c)

theorem out2_arg14 : W12 m ρ c (Proc.devRef .tc main_arg14) = (m ((c : Thread nD τ).loc main_arg14)) :=
  (W12_of_ne m ρ c main_arg14 (by decide)).trans (in2_arg14 m ρ c)

end Cert.KernelIdeal.Layers

end
-- ==== Proof.Stage3.lean ====
/-
  Between launch 2 and launch 3. From the previous launch's output h the host gathers the source node's row for
  every edge, scales it by the edge's weight, adds the scaled rows into their destination nodes, adds the bias, clamps
  at zero, and narrows the result and the next weight matrix to the launch's format: the same operations, on the same
  values, as the reference's layer — so the fourth launch starts from the reference's activations — and then the
  launch's output array is the reference's next dot product.
-/
import proofs.«100563_j18107582120448_1_alg».proof.Proof.Stage2

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
set_option maxHeartbeats 16000000 in
/-- The layer before its clamp: gathered, scaled, added into destinations, plus the bias. -/
theorem mid3_pre : W13 m ρ c (Proc.devRef .tc main_v90) = Cert.ReferenceIdeal.ReadP.val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hO := out2_O m ρ c
  have h3 := out2_v3 m ρ c
  have h6 := out2_v6 m ρ c
  have h31 := out2_v31 m ρ c
  have hb := out2_arg8 m ρ c
  dsimp only [W13]
  generalize W12 m ρ c = Wx at hO h3 h6 h31 hb ⊢
  dsimp only [hostOps3]
  after_results
  rw [hO, h3, h6, h31, hb]
  rfl

/-- Clamped at zero. -/
theorem mid3_relu : W14 m ρ c (Proc.devRef .tc main_v91) = Cert.ReferenceIdeal.ReadP.val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := mid3_pre m ρ c
  dsimp only [W14]
  generalize W13 m ρ c = Wx at h ⊢
  dsimp only [hostOps3_1]
  after_results
  refine Eq.trans (b := maximumf (Wx (Proc.devRef .tc main_v90)) (broadcastInDim S100000x64 ![] bcast_S_S100000x64 (constant S_ .f32 0x00000000#32))) rfl ?_
  rw [h]
  rfl

/-- The launch's row operand is the reference's activation after the previous layer. -/
theorem in3_L : W15 m ρ c (Proc.devRef .tc main_v92) = Cert.ReferenceIdeal.ReadP.val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := mid3_relu m ρ c
  dsimp only [W15]
  generalize W14 m ρ c = Wx at h ⊢
  dsimp only [hostOps3_2]
  after_results
  rw [h, truncf_id]

theorem in3_R : W15 m ρ c (Proc.devRef .tc main_v93) = (m ((c : Thread nD τ).loc main_arg9)) := by
  have hw := out2_arg9 m ρ c
  dsimp only [W15, W14, W13]
  generalize W12 m ρ c = Wx at hw ⊢
  dsimp only [hostOps3_2, hostOps3_1, hostOps3]
  after_results
  rw [hw]
  rfl

theorem in3_v3 : W15 m ρ c (Proc.devRef .tc main_v3) = Cert.ReferenceIdeal.ReadP.val_main_v3 (F := Ideal) (m ((c : Thread nD τ).loc main_arg1)) := by
  have h := out2_v3 m ρ c
  dsimp only [W15, W14, W13]
  generalize W12 m ρ c = Wx at h ⊢
  dsimp only [hostOps3_2, hostOps3_1, hostOps3]
  after_results
  exact h

theorem in3_v6 : W15 m ρ c (Proc.devRef .tc main_v6) = Cert.ReferenceIdeal.ReadP.val_main_v6 (F := Ideal) (m ((c : Thread nD τ).loc main_arg1)) := by
  have h := out2_v6 m ρ c
  dsimp only [W15, W14, W13]
  generalize W12 m ρ c = Wx at h ⊢
  dsimp only [hostOps3_2, hostOps3_1, hostOps3]
  after_results
  exact h

theorem in3_v31 : W15 m ρ c (Proc.devRef .tc main_v31) = Cert.ReferenceIdeal.ReadP.val_main_v31 (F := Ideal) (m ((c : Thread nD τ).loc main_arg1)) := by
  have h := out2_v31 m ρ c
  dsimp only [W15, W14, W13]
  generalize W12 m ρ c = Wx at h ⊢
  dsimp only [hostOps3_2, hostOps3_1, hostOps3]
  after_results
  exact h

theorem in3_arg2 : W15 m ρ c (Proc.devRef .tc main_arg2) = (m ((c : Thread nD τ).loc main_arg2)) := by
  have h := out2_arg2 m ρ c
  dsimp only [W15, W14, W13]
  generalize W12 m ρ c = Wx at h ⊢
  dsimp only [hostOps3_2, hostOps3_1, hostOps3]
  after_results
  exact h

theorem in3_arg10 : W15 m ρ c (Proc.devRef .tc main_arg10) = (m ((c : Thread nD τ).loc main_arg10)) := by
  have h := out2_arg10 m ρ c
  dsimp only [W15, W14, W13]
  generalize W12 m ρ c = Wx at h ⊢
  dsimp only [hostOps3_2, hostOps3_1, hostOps3]
  after_results
  exact h

theorem in3_arg11 : W15 m ρ c (Proc.devRef .tc main_arg11) = (m ((c : Thread nD τ).loc main_arg11)) := by
  have h := out2_arg11 m ρ c
  dsimp only [W15, W14, W13]
  generalize W12 m ρ c = Wx at h ⊢
  dsimp only [hostOps3_2, hostOps3_1, hostOps3]
  after_results
  exact h

theorem in3_arg12 : W15 m ρ c (Proc.devRef .tc main_arg12) = (m ((c : Thread nD τ).loc main_arg12)) := by
  have h := out2_arg12 m ρ c
  dsimp only [W15, W14, W13]
  generalize W12 m ρ c = Wx at h ⊢
  dsimp only [hostOps3_2, hostOps3_1, hostOps3]
  after_results
  exact h

theorem in3_arg13 : W15 m ρ c (Proc.devRef .tc main_arg13) = (m ((c : Thread nD τ).loc main_arg13)) := by
  have h := out2_arg13 m ρ c
  dsimp only [W15, W14, W13]
  generalize W12 m ρ c = Wx at h ⊢
  dsimp only [hostOps3_2, hostOps3_1, hostOps3]
  after_results
  exact h

theorem in3_arg14 : W15 m ρ c (Proc.devRef .tc main_arg14) = (m ((c : Thread nD τ).loc main_arg14)) := by
  have h := out2_arg14 m ρ c
  dsimp only [W15, W14, W13]
  generalize W12 m ρ c = Wx at h ⊢
  dsimp only [hostOps3_2, hostOps3_1, hostOps3]
  after_results
  exact h

/-- After launch 3: its output array is the reference's dot product of the same operands. -/
theorem out3_O : W16 m ρ c (Proc.devRef .tc main_v94) = Cert.ReferenceIdeal.ReadP.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W16_arr m ρ c 2).trans ?_
  refine (Dense3.final (V15 m ρ) c).trans ?_
  rw [show V15 m ρ c (Pipeline.arrRef spec3 0) = Cert.ReferenceIdeal.ReadP.val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) from in3_L m ρ c,
    show V15 m ρ c (Pipeline.arrRef spec3 1) = (m ((c : Thread nD τ).loc main_arg9)) from in3_R m ρ c]
  funext i
  rw [Cert.ReferenceIdeal.ReadP.val_main_v86_apply]
  rfl

theorem out3_v3 : W16 m ρ c (Proc.devRef .tc main_v3) = Cert.ReferenceIdeal.ReadP.val_main_v3 (F := Ideal) (m ((c : Thread nD τ).loc main_arg1)) :=
  (W16_of_ne m ρ c main_v3 (by decide)).trans (in3_v3 m ρ c)

theorem out3_v6 : W16 m ρ c (Proc.devRef .tc main_v6) = Cert.ReferenceIdeal.ReadP.val_main_v6 (F := Ideal) (m ((c : Thread nD τ).loc main_arg1)) :=
  (W16_of_ne m ρ c main_v6 (by decide)).trans (in3_v6 m ρ c)

theorem out3_v31 : W16 m ρ c (Proc.devRef .tc main_v31) = Cert.ReferenceIdeal.ReadP.val_main_v31 (F := Ideal) (m ((c : Thread nD τ).loc main_arg1)) :=
  (W16_of_ne m ρ c main_v31 (by decide)).trans (in3_v31 m ρ c)

theorem out3_arg2 : W16 m ρ c (Proc.devRef .tc main_arg2) = (m ((c : Thread nD τ).loc main_arg2)) :=
  (W16_of_ne m ρ c main_arg2 (by decide)).trans (in3_arg2 m ρ c)

theorem out3_arg10 : W16 m ρ c (Proc.devRef .tc main_arg10) = (m ((c : Thread nD τ).loc main_arg10)) :=
  (W16_of_ne m ρ c main_arg10 (by decide)).trans (in3_arg10 m ρ c)

theorem out3_arg11 : W16 m ρ c (Proc.devRef .tc main_arg11) = (m ((c : Thread nD τ).loc main_arg11)) :=
  (W16_of_ne m ρ c main_arg11 (by decide)).trans (in3_arg11 m ρ c)

theorem out3_arg12 : W16 m ρ c (Proc.devRef .tc main_arg12) = (m ((c : Thread nD τ).loc main_arg12)) :=
  (W16_of_ne m ρ c main_arg12 (by decide)).trans (in3_arg12 m ρ c)

theorem out3_arg13 : W16 m ρ c (Proc.devRef .tc main_arg13) = (m ((c : Thread nD τ).loc main_arg13)) :=
  (W16_of_ne m ρ c main_arg13 (by decide)).trans (in3_arg13 m ρ c)

theorem out3_arg14 : W16 m ρ c (Proc.devRef .tc main_arg14) = (m ((c : Thread nD τ).loc main_arg14)) :=
  (W16_of_ne m ρ c main_arg14 (by decide)).trans (in3_arg14 m ρ c)

end Cert.KernelIdeal.Layers

end
-- ==== Proof.StageFinal.lean ====
/-
  After the last launch. The host finishes the fourth layer (gather, scale, add into destinations, bias; no clamp),
  averages the node rows of each graph of the batch (sums per graph divided by the count, at least one), and applies
  the two small dense layers of the head: the same operations on the same values as the reference's, so the result
  buffer holds the reference's result stage.
-/
import proofs.«100563_j18107582120448_1_alg».proof.Proof.Stage3

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
set_option maxHeartbeats 16000000 in
/-- The head's first layer before its clamp. -/
theorem fin_pre : W17 m ρ c (Proc.devRef .tc main_v126) = Cert.ReferenceIdeal.ReadP.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have hO := out3_O m ρ c
  have h3 := out3_v3 m ρ c
  have h6 := out3_v6 m ρ c
  have h31 := out3_v31 m ρ c
  have ha10 := out3_arg10 m ρ c
  have ha2 := out3_arg2 m ρ c
  have ha11 := out3_arg11 m ρ c
  have ha12 := out3_arg12 m ρ c
  dsimp only [W17]
  generalize W16 m ρ c = Wx at hO h3 h6 h31 ha10 ha2 ha11 ha12 ⊢
  dsimp only [hostOps4]
  after_results
  rw [hO, h3, h6, h31, ha10, ha2, ha11, ha12]
  rfl

/-- Clamped at zero. -/
theorem fin_relu : W18 m ρ c (Proc.devRef .tc main_v127) = Cert.ReferenceIdeal.ReadP.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h := fin_pre m ρ c
  dsimp only [W18]
  generalize W17 m ρ c = Wx at h ⊢
  dsimp only [hostOps4_1]
  after_results
  refine Eq.trans (b := maximumf (Wx (Proc.devRef .tc main_v126)) (broadcastInDim S64x16 ![] bcast_S_S64x16 (constant S_ .f32 0x00000000#32))) rfl ?_
  rw [h]
  rfl

theorem fin_arg13 : W18 m ρ c (Proc.devRef .tc main_arg13) = (m ((c : Thread nD τ).loc main_arg13)) := by
  have h := out3_arg13 m ρ c
  dsimp only [W18, W17]
  generalize W16 m ρ c = Wx at h ⊢
  dsimp only [hostOps4_1, hostOps4]
  after_results
  exact h

theorem fin_arg14 : W18 m ρ c (Proc.devRef .tc main_arg14) = (m ((c : Thread nD τ).loc main_arg14)) := by
  have h := out3_arg14 m ρ c
  dsimp only [W18, W17]
  generalize W16 m ρ c = Wx at h ⊢
  dsimp only [hostOps4_1, hostOps4]
  after_results
  exact h

/-- The program's result buffer after the whole run is the reference's result, as a function of the arguments. -/
theorem result_eq : W19 m ρ c (Proc.devRef .tc main_v131) = Cert.ReferenceIdeal.ReadP.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h := fin_relu m ρ c
  have ha13 := fin_arg13 m ρ c
  have ha14 := fin_arg14 m ρ c
  dsimp only [W19]
  generalize W18 m ρ c = Wx at h ha13 ha14 ⊢
  dsimp only [hostOps4_2]
  after_results
  rw [h, ha13, ha14]
  rfl

end Cert.KernelIdeal.Layers

end
-- ==== Proof.lean ====
/-
  The certificate of a four-layer graph convolution with a pooled two-layer head. The program under proof runs each
  layer's dense product X·W as a grid launch over twenty row blocks, on operands narrowed to a shorter float format,
  and does everything else — the edge lists with self-loops, the degree normalisation, the per-edge gather, scaling and
  add-into-destination, bias, clamp, the per-graph mean and the head — on the host by the very operations the reference
  uses. At the extended reals a change of float format is the identity and a blocked product into a zero accumulator is
  the whole product (each output entry is the same sum ∑ₖ a(i,k)·w(k,j), and the row blocks cover every row), so the
  two programs compute the same function of the arguments stage by stage: no law beyond regrouping the rows is used,
  and the finiteness of the inputs is not needed.
  The frames of the two printed programs are the generated ones; the reference's frame is its run with the result
  dropped; the idealization rewrote nothing, so its soundness conjunct is trivial.
-/
import proofs.«100563_j18107582120448_1_alg».proof.Defs
import proofs.«100563_j18107582120448_1_alg».proof.Proof.Gen.Kernel
import proofs.«100563_j18107582120448_1_alg».proof.Proof.Gen.Kernel.Skeleton
import proofs.«100563_j18107582120448_1_alg».proof.Proof.Gen.Kernel.Launch
import proofs.«100563_j18107582120448_1_alg».proof.Proof.Gen.Kernel.Points
import proofs.«100563_j18107582120448_1_alg».proof.Proof.Gen.Kernel.Frame
import proofs.«100563_j18107582120448_1_alg».proof.Proof.Gen.KernelIdeal
import proofs.«100563_j18107582120448_1_alg».proof.Proof.Gen.KernelIdeal.Skeleton
import proofs.«100563_j18107582120448_1_alg».proof.Proof.Gen.KernelIdeal.Launch
import proofs.«100563_j18107582120448_1_alg».proof.Proof.Gen.KernelIdeal.Points
import proofs.«100563_j18107582120448_1_alg».proof.Proof.Gen.KernelIdeal.Frame
import proofs.«100563_j18107582120448_1_alg».proof.Proof.Gen.ReferenceIdeal
import proofs.«100563_j18107582120448_1_alg».proof.Proof.Gen.Pre_finite_inputs
import proofs.«100563_j18107582120448_1_alg».proof.Proof.RefRun
import proofs.«100563_j18107582120448_1_alg».proof.Proof.RefRead
import proofs.«100563_j18107582120448_1_alg».proof.Proof.Whole
import proofs.«100563_j18107582120448_1_alg».proof.Proof.StageFinal
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's result stage of the (agreeing) arguments in their result buffers. -/
theorem algebraic : Cert.algebraic_KernelIdeal_ReferenceIdeal := by
  intro m ρ m' ρ' _ hagree
  refine ⟨fun c => Cert.ReferenceIdeal.ReadP.val_main_v123 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ?_) (Cert.KernelIdeal.Whole.run_all (F := Ideal) m ρ)
    exact ⟨(h c _ (Cert.KernelIdeal.Gen.mem_uc Cert.KernelIdeal.main_v131 (by decide))).trans (Cert.KernelIdeal.Layers.result_eq m ρ c),
      (h c _ (Cert.KernelIdeal.Gen.mem_uc Cert.KernelIdeal.main_arg0 (by decide))).trans (Cert.KernelIdeal.Gen.W19_main_arg0 m ρ c),
      (h c _ (Cert.KernelIdeal.Gen.mem_uc Cert.KernelIdeal.main_arg1 (by decide))).trans (Cert.KernelIdeal.Gen.W19_main_arg1 m ρ c),
      (h c _ (Cert.KernelIdeal.Gen.mem_uc Cert.KernelIdeal.main_arg2 (by decide))).trans (Cert.KernelIdeal.Gen.W19_main_arg2 m ρ c),
      (h c _ (Cert.KernelIdeal.Gen.mem_uc Cert.KernelIdeal.main_arg3 (by decide))).trans (Cert.KernelIdeal.Gen.W19_main_arg3 m ρ c),
      (h c _ (Cert.KernelIdeal.Gen.mem_uc Cert.KernelIdeal.main_arg4 (by decide))).trans (Cert.KernelIdeal.Gen.W19_main_arg4 m ρ c),
      (h c _ (Cert.KernelIdeal.Gen.mem_uc Cert.KernelIdeal.main_arg5 (by decide))).trans (Cert.KernelIdeal.Gen.W19_main_arg5 m ρ c),
      (h c _ (Cert.KernelIdeal.Gen.mem_uc Cert.KernelIdeal.main_arg6 (by decide))).trans (Cert.KernelIdeal.Gen.W19_main_arg6 m ρ c),
      (h c _ (Cert.KernelIdeal.Gen.mem_uc Cert.KernelIdeal.main_arg7 (by decide))).trans (Cert.KernelIdeal.Gen.W19_main_arg7 m ρ c),
      (h c _ (Cert.KernelIdeal.Gen.mem_uc Cert.KernelIdeal.main_arg8 (by decide))).trans (Cert.KernelIdeal.Gen.W19_main_arg8 m ρ c),
      (h c _ (Cert.KernelIdeal.Gen.mem_uc Cert.KernelIdeal.main_arg9 (by decide))).trans (Cert.KernelIdeal.Gen.W19_main_arg9 m ρ c),
      (h c _ (Cert.KernelIdeal.Gen.mem_uc Cert.KernelIdeal.main_arg10 (by decide))).trans (Cert.KernelIdeal.Gen.W19_main_arg10 m ρ c),
      (h c _ (Cert.KernelIdeal.Gen.mem_uc Cert.KernelIdeal.main_arg11 (by decide))).trans (Cert.KernelIdeal.Gen.W19_main_arg11 m ρ c),
      (h c _ (Cert.KernelIdeal.Gen.mem_uc Cert.KernelIdeal.main_arg12 (by decide))).trans (Cert.KernelIdeal.Gen.W19_main_arg12 m ρ c),
      (h c _ (Cert.KernelIdeal.Gen.mem_uc Cert.KernelIdeal.main_arg13 (by decide))).trans (Cert.KernelIdeal.Gen.W19_main_arg13 m ρ c),
      (h c _ (Cert.KernelIdeal.Gen.mem_uc Cert.KernelIdeal.main_arg14 (by decide))).trans (Cert.KernelIdeal.Gen.W19_main_arg14 m ρ c)⟩
  · refine (θ_run Cert.ReferenceIdeal.defs _ _).mono (fun _ h c => ⟨?_, (h c).2⟩) (Cert.ReferenceIdeal.ValueP.run (F := Ideal) m' ρ')
    obtain ⟨e0, e1, e2, e3, e4, e5, e6, e7, e8, e9, e10, e11, e12, e13, e14⟩ := hagree c
    rw [(h c).1, Cert.ReferenceIdeal.ReadP.val_main_v123_eq, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
